-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S512 .f32) (main_arg13 : FVec F S512 .f32) (main_arg14 : FVec F S256x64 .f32) (main_arg15 : FVec F S64 .f32) (main_arg16 : FVec F S64x1 .f32) (main_arg17 : FVec F S1 .f32) (main_v48 : IVec S_ 1) (main_v49 : FVec F S512x128 .f32) (main_v50 : FVec F S512x128 .f32) : IVec S_ 1 :=
  let main_v51 : IVec S512x128 1 := cmpf .olt main_v49 main_v50
  let main_c_19 : IVec S_ 1 := constantI S_ 1 1#1
  let main_v52 : IVec S_ 1 := (fun x v => Host.reduce IntOp.andi x v reducesTo_S512x128_S_d0_1 h_S_) main_v51 main_c_19
  let main_v53 : IVec S_ 1 := andi main_v48 main_v52
  let main_v54 : FVec F S512 .f32 := Host.absf main_arg12
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S256x64 .f32 := Host.absf main_arg14
  let main_cst_24 : FVec F S_ .f32 := constant S_ .f32 0x7F800000#32
  let main_v65 : FVec F S256x64 .f32 := broadcastInDim S256x64 ![] bcast_S_S256x64 main_cst_24
  let main_v66 : IVec S256x64 1 := cmpf .olt main_v64 main_v65
  let main_c_25 : IVec S_ 1 := constantI S_ 1 1#1
  let main_v67 : IVec S_ 1 := (fun x v => Host.reduce IntOp.andi x v reducesTo_S256x64_S_d0_1 h_S_) main_v66 main_c_25
  fn_part4 (F := F) main_arg15 main_arg16 main_arg17 main_v63 main_v67

def fn_part2 {F : FTy → Type} [FloatOps F] (main_arg8 : FVec F S512 .f32) (main_arg9 : FVec F S512 .f32) (main_arg10 : FVec F S512x128 .f32) (main_arg11 : FVec F S512x128 .f32) (main_arg12 : FVec F S512 .f32) (main_arg13 : FVec F S512 .f32) (main_arg14 : FVec F S256x64 .f32) (main_arg15 : FVec F S64 .f32) (main_arg16 : FVec F S64x1 .f32) (main_arg17 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S512x128 .f32 := Host.absf main_arg11
  let main_cst_18 : FVec F S_ .f32 := constant S_ .f32 0x7F800000#32
  let main_v50 : FVec F S512x128 .f32 := broadcastInDim S512x128 ![] bcast_S_S512x128 main_cst_18
  fn_part3 (F := F) main_arg12 main_arg13 main_arg14 main_arg15 main_arg16 main_arg17 main_v48 main_v49 main_v50

def fn_part1 {F : FTy → Type} [FloatOps F] (main_arg5 : FVec F S128 .f32) (main_arg6 : FVec F S512x128 .f32) (main_arg7 : FVec F S512x128 .f32) (main_arg8 : FVec F S512 .f32) (main_arg9 : FVec F S512 .f32) (main_arg10 : FVec F S512x128 .f32) (main_arg11 : FVec F S512x128 .f32) (main_arg12 : FVec F S512 .f32) (main_arg13 : FVec F S512 .f32) (main_arg14 : FVec F S256x64 .f32) (main_arg15 : FVec F S64 .f32) (main_arg16 : FVec F S64x1 .f32) (main_arg17 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512x128 .f32 := Host.absf main_arg6
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S512x128 .f32 := Host.absf main_arg7
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S512x128 .f32) (main_arg7 : FVec F S512x128 .f32) (main_arg8 : FVec F S512 .f32) (main_arg9 : FVec F S512 .f32) (main_arg10 : FVec F S512x128 .f32) (main_arg11 : FVec F S512x128 .f32) (main_arg12 : FVec F S512 .f32) (main_arg13 : FVec F S512 .f32) (main_arg14 : FVec F S256x64 .f32) (main_arg15 : FVec F S64 .f32) (main_arg16 : FVec F S64x1 .f32) (main_arg17 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1000x128 : Shape := ⟨2, ![1000, 128]⟩
abbrev S1700000x128 : Shape := ⟨2, ![1700000, 128]⟩
abbrev S1x128 : Shape := ⟨2, ![1, 128]⟩
abbrev S128x512 : Shape := ⟨2, ![128, 512]⟩
abbrev S1x512 : Shape := ⟨2, ![1, 512]⟩
abbrev S1x64 : Shape := ⟨2, ![1, 64]⟩
abbrev S1x1 : Shape := ⟨2, ![1, 1]⟩
abbrev S100000x1 : Shape := ⟨2, ![100000, 1]⟩
abbrev S1000x1 : Shape := ⟨2, ![1000, 1]⟩
abbrev S1000x512 : Shape := ⟨2, ![1000, 512]⟩
abbrev S1000x256 : Shape := ⟨2, ![1000, 256]⟩
abbrev S1000x64 : Shape := ⟨2, ![1000, 64]⟩

abbrev nBuf : Space → Nat
  | .hbm => 100
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S512x128, .f32⟩
  | .hbm, ⟨7, _⟩ => ⟨S512x128, .f32⟩
  | .hbm, ⟨8, _⟩ => ⟨S512, .f32⟩
  | .hbm, ⟨9, _⟩ => ⟨S512, .f32⟩
  | .hbm, ⟨10, _⟩ => ⟨S512x128, .f32⟩
  | .hbm, ⟨11, _⟩ => ⟨S512x128, .f32⟩
  | .hbm, ⟨12, _⟩ => ⟨S512, .f32⟩
  | .hbm, ⟨13, _⟩ => ⟨S512, .f32⟩
  | .hbm, ⟨14, _⟩ => ⟨S256x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000, .i32⟩
  | .hbm, ⟨23, _⟩ => ⟨S1700000, .i32⟩
  | .hbm, ⟨24, _⟩ => ⟨S1700000, .i32⟩
  | .hbm, ⟨25, _⟩ => ⟨S_, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S1700000x1, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x128, .f32⟩
  | .hbm, ⟨84, _⟩ => ⟨S1700000x128, .f32⟩
  | .hbm, ⟨85, _⟩ => ⟨S_, .f32⟩
  | .hbm, ⟨86, _⟩ => ⟨S100000x128, .f32⟩
  | .hbm, ⟨87, _⟩ => ⟨S1700000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S128x512, .f32⟩
  | .hbm, ⟨92, _⟩ => ⟨S128x512, .f32⟩
  | .hbm, ⟨93, _⟩ => ⟨S512, .f32⟩
  | .hbm, ⟨94, _⟩ => ⟨S1x512, .f32⟩
  | .hbm, ⟨95, _⟩ => ⟨S512, .f32⟩
  | .hbm, ⟨96, _⟩ => ⟨S1x512, .f32⟩
  | .hbm, ⟨97, _⟩ => ⟨S1x64, .f32⟩
  | .hbm, ⟨98, _⟩ => ⟨S1x1, .f32⟩
  | .hbm, ⟨99, _⟩ => ⟨S100000x1, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S1000x128, .f32⟩
  | .local _ .vmem, ⟨7, _⟩ => ⟨S1x128, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x128, .f32⟩
  | .local _ .vmem, ⟨13, _⟩ => ⟨S1000x128, .f32⟩
  | .local _ .vmem, ⟨14, _⟩ => ⟨S1000x128, .f32⟩
  | .local _ .vmem, ⟨15, _⟩ => ⟨S1000x128, .f32⟩
  | .local _ .vmem, ⟨16, _⟩ => ⟨S1000x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1000x128, .f32⟩
  | .local _ .vmem, ⟨21, _⟩ => ⟨S1000x128, .f32⟩
  | .local _ .vmem, ⟨22, _⟩ => ⟨S128x512, .f32⟩
  | .local _ .vmem, ⟨23, _⟩ => ⟨S1x512, .f32⟩
  | .local _ .vmem, ⟨24, _⟩ => ⟨S128x512, .f32⟩
  | .local _ .vmem, ⟨25, _⟩ => ⟨S1x512, .f32⟩
  | .local _ .vmem, ⟨26, _⟩ => ⟨S256x64, .f32⟩
  | .local _ .vmem, ⟨27, _⟩ => ⟨S1x64, .f32⟩
  | .local _ .vmem, ⟨28, _⟩ => ⟨S64x1, .f32⟩
  | .local _ .vmem, ⟨29, _⟩ => ⟨S1x1, .f32⟩
  | .local _ .vmem, ⟨30, _⟩ => ⟨S1000x1, .f32⟩
  | .local _ .vmem, ⟨31, _⟩ => ⟨S1000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_5 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_v46 : Ref sig .tc := ⟨.hbm, 75, rfl⟩
abbrev main_v47 : Ref sig .tc := ⟨.hbm, 76, rfl⟩
abbrev main_c_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg4_0 : Ref sig .tc := ⟨.vmem, 25, rfl⟩
abbrev cc4_stg5_0 : Ref sig .tc := ⟨.vmem, 26, rfl⟩
abbrev cc4_stg6_0 : Ref sig .tc := ⟨.vmem, 27, rfl⟩
abbrev cc4_stg7_0 : Ref sig .tc := ⟨.vmem, 28, rfl⟩
abbrev cc4_stg8_0 : Ref sig .tc := ⟨.vmem, 29, rfl⟩
abbrev cc4_stg9_0 : Ref sig .tc := ⟨.vmem, 30, rfl⟩
abbrev cc4_stg9_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem4_0 : DmaSem sig := 25
abbrev cc4_sem5_0 : DmaSem sig := 26
abbrev cc4_sem6_0 : DmaSem sig := 27
abbrev cc4_sem7_0 : DmaSem sig := 28
abbrev cc4_sem8_0 : DmaSem sig := 29
abbrev cc4_sem9_0 : DmaSem sig := 30
abbrev cc4_sem9_1 : DmaSem sig := 31

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S64x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1000x1 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  transposes_S512x128_S128x512_1_0 : S512x128.Transposes [1, 0] S128x512
  shapeCasts_S512_S1x512 : S512.ShapeCasts S1x512
  shapeCasts_S64_S1x64 : S64.ShapeCasts S1x64
  shapeCasts_S1_S1x1 : S1.ShapeCasts S1x1
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1000x512 : S1x512.Broadcasts S1000x512
  slices_S1000x512_o0_0_S1000x128 : S1000x512.Slices ![0, 0] S1000x128
  slices_S1000x512_o0_256_S1000x128 : S1000x512.Slices ![0, 256] S1000x128
  slices_S1000x512_o0_384_S1000x128 : S1000x512.Slices ![0, 384] S1000x128
  concatenates_S1000x128_S1000x128_S1000x256_d1 : Shape.Concatenates [S1000x128, S1000x128] S1000x256 1
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  inb_S1000x1_S1000x1_0_0 : ∀ a, (![0, 0] : Fin 2 → Nat) a + S1000x1.size a ≤ S1000x1.size a
  h_S1000x1 : 0 < S1000x1.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S1000x128_S128x128_S1000x128_1_0_0_1_n_n_wf : DotDims.WF S1000x128 S128x128 S1000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S1000x128_S128x512_S1000x512_1_0_0_1_n_n_wf : DotDims.WF S1000x128 S128x512 S1000x512 [1] [0] [0] [1] [] []
  dot_S1000x256_S256x64_S1000x64_1_0_0_1_n_n_wf : DotDims.WF S1000x256 S256x64 S1000x64 [1] [0] [0] [1] [] []
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S100000x128.size a
  hwx0_2 : ∀ i : grid0.Coords, EltTy.bits .f32 = 32 ∨ (Rect.block (s := S100000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x128.size a ≤ S100000x128.size a
  hwx1_0 : ∀ i : grid1.Coords, EltTy.bits .f32 = 32 ∨ (Rect.block (s := S100000x128) S1000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x128.size a ≤ S100000x128.size a
  hwx1_2 : ∀ i : grid1.Coords, EltTy.bits .f32 = 32 ∨ (Rect.block (s := S100000x128) S1000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S100000x128.size a
  hwx2_0 : ∀ i : grid2.Coords, EltTy.bits .f32 = 32 ∨ (Rect.block (s := S100000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1000x128.size a ≤ S100000x128.size a
  hwx2_2 : ∀ i : grid2.Coords, EltTy.bits .f32 = 32 ∨ (Rect.block (s := S100000x128) S1000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x128.size a ≤ S100000x128.size a
  hwx3_0 : ∀ i : grid3.Coords, EltTy.bits .f32 = 32 ∨ (Rect.block (s := S100000x128) S1000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S100000x128.size a
  hwx3_2 : ∀ i : grid3.Coords, EltTy.bits .f32 = 32 ∨ (Rect.block (s := S100000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x128.size a ≤ S100000x128.size a
  hwx4_0 : ∀ i : grid4.Coords, EltTy.bits .f32 = 32 ∨ (Rect.block (s := S100000x128) S1000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x512.size a ≤ S128x512.size a
  hwx4_1 : ∀ i : grid4.Coords, EltTy.bits .f32 = 32 ∨ (Rect.block (s := S128x512) S128x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x512.size a ≤ S128x512.size a
  hwx4_3 : ∀ i : grid4.Coords, EltTy.bits .f32 = 32 ∨ (Rect.block (s := S128x512) S128x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x512.size a ≤ S1x512.size a
  hwx4_4 : ∀ i : grid4.Coords, EltTy.bits .f32 = 32 ∨ (Rect.block (s := S1x512) S1x512.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x64.size a ≤ S256x64.size a
  hwx4_5 : ∀ i : grid4.Coords, EltTy.bits .f32 = 32 ∨ (Rect.block (s := S256x64) S256x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S64x1.size a ≤ S64x1.size a
  hwx4_7 : ∀ i : grid4.Coords, EltTy.bits .f32 = 32 ∨ (Rect.block (s := S64x1) S64x1.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x1.size a ≤ S1x1.size a
  hwx4_8 : ∀ i : grid4.Coords, EltTy.bits .f32 = 32 ∨ (Rect.block (s := S1x1) S1x1.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S1000x1.size a ≤ S100000x1.size a
  hwx4_9 : ∀ i : grid4.Coords, EltTy.bits .f32 = 32 ∨ (Rect.block (s := S100000x1) S1000x1.size (cc4_transform_9 i) (hinb4_9 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S1000x128_S128x128_S1000x128_1_0_0_1_n_n : DotDims S1000x128 S128x128 S1000x128 where
  lhsContracting := [1]
  rhsContracting := [0]
  lhsNonContracting := [0]
  rhsNonContracting := [1]
  lhsBatch := []
  rhsBatch := []
  wf := dot_S1000x128_S128x128_S1000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x256_S256x64_S1000x64_1_0_0_1_n_n : DotDims S1000x256 S256x64 S1000x64 where
  lhsContracting := [1]
  rhsContracting := [0]
  lhsNonContracting := [0]
  rhsNonContracting := [1]
  lhsBatch := []
  rhsBatch := []
  wf := dot_S1000x256_S256x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S1000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S1000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S1000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S128x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S128x512.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v65) S1x512.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg14) S256x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v66) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg16) S64x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v67) S1x1.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v68) S1000x1.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S512x128 : Shape := ⟨2, ![512, 128]⟩
abbrev S512 : Shape := ⟨1, ![512]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S128x512 : Shape := ⟨2, ![128, 512]⟩
abbrev S100000x512 : Shape := ⟨2, ![100000, 512]⟩
abbrev S1x512 : Shape := ⟨2, ![1, 512]⟩
abbrev S100000x256 : Shape := ⟨2, ![100000, 256]⟩
abbrev S100000x64 : Shape := ⟨2, ![100000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 206
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S512x128, .f32⟩
  | 7 => ⟨S512x128, .f32⟩
  | 8 => ⟨S512, .f32⟩
  | 9 => ⟨S512, .f32⟩
  | 10 => ⟨S512x128, .f32⟩
  | 11 => ⟨S512x128, .f32⟩
  | 12 => ⟨S512, .f32⟩
  | 13 => ⟨S512, .f32⟩
  | 14 => ⟨S256x64, .f32⟩
  | 15 => ⟨S64, .f32⟩
  | 16 => ⟨S64x1, .f32⟩
  | 17 => ⟨S1, .f32⟩
  | 18 => ⟨S1x1600000, .i32⟩
  | 19 => ⟨S1600000, .i32⟩
  | 20 => ⟨S1x1600000, .i32⟩
  | 21 => ⟨S1600000, .i32⟩
  | 22 => ⟨S100000x128, .f32⟩
  | 23 => ⟨S100000, .i32⟩
  | 24 => ⟨S1700000, .i32⟩
  | 25 => ⟨S1700000, .i32⟩
  | 26 => ⟨S_, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S100000, .i32⟩
  | 79 => ⟨S1700000, .i32⟩
  | 80 => ⟨S1700000, .i32⟩
  | 81 => ⟨S_, .f32⟩
  | 82 => ⟨S1700000, .f32⟩
  | 83 => ⟨S_, .f32⟩
  | 84 => ⟨S100000, .f32⟩
  | 85 => ⟨S1700000x1, .i32⟩
  | 86 => ⟨S100000, .f32⟩
  | 87 => ⟨S_, .f32⟩
  | 88 => ⟨S100000, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x128, .f32⟩
  | 119 => ⟨S1700000x1, .f32⟩
  | 120 => ⟨S1700000x128, .f32⟩
  | 121 => ⟨S1700000x128, .f32⟩
  | 122 => ⟨S_, .f32⟩
  | 123 => ⟨S100000x128, .f32⟩
  | 124 => ⟨S1700000x1, .i32⟩
  | 125 => ⟨S100000x128, .f32⟩
  | 126 => ⟨S1x128, .f32⟩
  | 127 => ⟨S100000x128, .f32⟩
  | _ => ⟨S100000x128, .f32⟩

abbrev hbmTy0_1 (i : Nat) : BufTy := match i % 128 with
  | 0 => ⟨S100000x128, .f32⟩
  | 1 => ⟨S_, .f32⟩
  | 2 => ⟨S100000x128, .f32⟩
  | 3 => ⟨S100000x128, .f32⟩
  | 4 => ⟨S128x512, .f32⟩
  | 5 => ⟨S100000x512, .f32⟩
  | 6 => ⟨S1x512, .f32⟩
  | 7 => ⟨S100000x512, .f32⟩
  | 8 => ⟨S100000x512, .f32⟩
  | 9 => ⟨S1x512, .f32⟩
  | 10 => ⟨S100000x512, .f32⟩
  | 11 => ⟨S100000x512, .f32⟩
  | 12 => ⟨S100000x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000x128, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S100000x128, .f32⟩
  | 34 => ⟨S100000x128, .f32⟩
  | 35 => ⟨S128x512, .f32⟩
  | 36 => ⟨S100000x512, .f32⟩
  | 37 => ⟨S1x512, .f32⟩
  | 38 => ⟨S100000x512, .f32⟩
  | 39 => ⟨S100000x512, .f32⟩
  | 40 => ⟨S1x512, .f32⟩
  | 41 => ⟨S100000x512, .f32⟩
  | 42 => ⟨S100000x512, .f32⟩
  | 43 => ⟨S100000x128, .f32⟩
  | 44 => ⟨S100000x128, .f32⟩
  | 45 => ⟨S100000x128, .f32⟩
  | 46 => ⟨S_, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x128, .f32⟩
  | 53 => ⟨S100000x128, .f32⟩
  | 54 => ⟨S100000x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .f32⟩
  | 61 => ⟨S100000x128, .f32⟩
  | 62 => ⟨S100000x128, .f32⟩
  | 63 => ⟨S100000x128, .f32⟩
  | 64 => ⟨S100000x128, .f32⟩
  | 65 => ⟨S100000x128, .f32⟩
  | 66 => ⟨S100000x256, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x1, .f32⟩
  | 75 => ⟨S1x1, .f32⟩
  | 76 => ⟨S100000x1, .f32⟩
  | 77 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_3 : Ref sig .tc := ⟨.hbm, 45, rfl⟩
abbrev main_v22 : Ref sig .tc := ⟨.hbm, 46, rfl⟩
abbrev main_v23 : Ref sig .tc := ⟨.hbm, 47, rfl⟩
abbrev main_c_4 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_call0_cst : Ref sig .tc := ⟨.hbm, 74, rfl⟩
abbrev main_call0_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_c_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_17 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_call1_cst : Ref sig .tc := ⟨.hbm, 129, rfl⟩
abbrev main_call1_v0 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_18 : Ref sig .tc := ⟨.hbm, 143, rfl⟩
abbrev main_v101 : Ref sig .tc := ⟨.hbm, 144, rfl⟩
abbrev main_v102 : Ref sig .tc := ⟨.hbm, 145, rfl⟩
abbrev main_cst_19 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_20 : Ref sig .tc := ⟨.hbm, 154, rfl⟩
abbrev main_v110 : Ref sig .tc := ⟨.hbm, 155, rfl⟩
abbrev main_v111 : Ref sig .tc := ⟨.hbm, 156, rfl⟩
abbrev main_cst_21 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_22 : Ref sig .tc := ⟨.hbm, 174, rfl⟩
abbrev main_v128 : Ref sig .tc := ⟨.hbm, 175, rfl⟩
abbrev main_v129 : Ref sig .tc := ⟨.hbm, 176, rfl⟩
abbrev main_cst_23 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_cst_24 : Ref sig .tc := ⟨.hbm, 185, rfl⟩
abbrev main_v137 : Ref sig .tc := ⟨.hbm, 186, rfl⟩
abbrev main_v138 : Ref sig .tc := ⟨.hbm, 187, rfl⟩
abbrev main_cst_25 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_call2_cst : Ref sig .tc := ⟨.hbm, 199, rfl⟩
abbrev main_call2_v0 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_256 : S100000x512.Slices ![0, 256] S100000x128
  slices_S100000x512_S100000x128_0_384 : S100000x512.Slices ![0, 384] S100000x128
  concatenates_S100000x128_S100000x128_S100000x256_d1 : Shape.Concatenates [S100000x128, S100000x128] S100000x256 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x512_S100000x512_1_0_0_1_n_n_wf : DotDims.WF S100000x128 S128x512 S100000x512 [1] [0] [0] [1] [] []
  dot_S100000x256_S256x64_S100000x64_1_0_0_1_n_n_wf : DotDims.WF S100000x256 S256x64 S100000x64 [1] [0] [0] [1] [] []
  dot_S100000x64_S64x1_S100000x1_1_0_0_1_n_n_wf : DotDims.WF S100000x64 S64x1 S100000x1 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its result named.

  Every weakly fair execution of the program from a memory `m` terminates without a fault; at the end the result buffer
  holds what the fold of the program's nine segments (four stretches of host operations and five kernel regions) leaves
  there, and every argument array is as launched.
-/
import proofs.«169956_j53901839565300_1_alg».proof.Proof.Gen.KernelIdeal.Frame

set_option maxRecDepth 16384

noncomputable section

namespace Cert.Gcn.KernelSide

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last segment boundary's contents, the arguments end unchanged. -/
theorem run_result : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c),
       (h c _ (mem_uc main_arg14 (by decide))).trans (W9_main_arg14 m ρ c),
       (h c _ (mem_uc main_arg15 (by decide))).trans (W9_main_arg15 m ρ c),
       (h c _ (mem_uc main_arg16 (by decide))).trans (W9_main_arg16 m ρ c),
       (h c _ (mem_uc main_arg17 (by decide))).trans (W9_main_arg17 m ρ c)⟩)

end Cert.Gcn.KernelSide

end
-- ==== Proof.Spec.lean ====
/-
  The network's layers as functions of whole arrays, index by index, on the extended reals.

  A graph-convolution layer is: a dense product with the weight matrix, a normalised neighbour sum (gather rows at the
  source nodes, scale, scatter-add at the destination nodes), then the bias and the rectifier. The head is one step of
  a two-direction LSTM from a zero state (the forget gate is unused and the recurrent term vanishes), followed by a
  two-layer perceptron. Here are the dense product (`lin`), the bias-and-rectifier (`biasRelu`, `biasReluR`) and the
  head (`outOf` over a row's gate pre-activations), each as the value at one row and column. The neighbour sum is one
  and the same function of the edge list and of the features in both programs.

  The head comes in two spellings that differ only in how a direction's pre-activation is written: with the weight
  matrix already transposed and the two bias vectors already added (`gateAt`), or with the weight matrix as given and
  the two biases added one after the other (`gateRefAt`); they agree by associativity of the sum.
-/
import proofs.«169956_j53901839565300_1_alg».proof.KernelIdeal
import Idealize.ShloMosaic.PureOps.Ideal
import Idealize.ShloMosaic.Lib.ValueIdx

noncomputable section

open scoped BigOperators

namespace Cert.Gcn

open Idealize.ShloMosaic Idealize.ShloMosaic.ValueIdx Cert.KernelIdeal

/-- The rectifier's threshold: the word of +0.0 read as an extended real. -/
abbrev zeroE : EReal := Ideal.ofBits .f32 0x00000000#32

/-- Row `r`, column `c` of the product `x · W`: the sum over the 128 input features. -/
def linAt (x : FVec Ideal S100000x128 .f32) (W : FVec Ideal S128x128 .f32) (r : Fin 100000) (c : Fin 128) : EReal :=
  ∑ k : Fin 128, x (ix2 r k) * W (ix2 k c)

/-- The product `x · W` as an array. -/
def lin (x : FVec Ideal S100000x128 .f32) (W : FVec Ideal S128x128 .f32) : FVec Ideal S100000x128 .f32 :=
  fun i => linAt x W (i 0) (i 1)

/-- Row `r`, column `c` of `max (a + b, 0)`, the bias `b` a single row added to every row of `a`. -/
def biasReluAt (a : FVec Ideal S100000x128 .f32) (b : FVec Ideal S1x128 .f32) (r : Fin 100000) (c : Fin 128) : EReal :=
  max (a (ix2 r c) + b (ix2 0 c)) zeroE

/-- `max (a + b, 0)` as an array, the bias a [1, 128] row. -/
def biasRelu (a : FVec Ideal S100000x128 .f32) (b : FVec Ideal S1x128 .f32) : FVec Ideal S100000x128 .f32 :=
  fun i => biasReluAt a b (i 0) (i 1)

/-- `max (a + b, 0)` as an array, the bias a vector of 128. -/
def biasReluR (a : FVec Ideal S100000x128 .f32) (b : FVec Ideal S128 .f32) : FVec Ideal S100000x128 .f32 :=
  fun i => max (a i + b (ix1 (i 1))) zeroE

/-- One direction's gate pre-activations of row `r`, column `c` of 512, from the transposed weights `wt` [128, 512]
    and the summed bias row `b` [1, 512]: `h · wt + b`
    (columns 0–127 the input gate, 256–383 the cell candidate, 384–511 the output gate). -/
def gateAt (h : FVec Ideal S100000x128 .f32) (wt : FVec Ideal S128x512 .f32) (b : FVec Ideal S1x512 .f32)
    (r : Fin 100000) (c : Fin 512) : EReal :=
  (∑ k : Fin 128, h (ix2 r k) * wt (ix2 k c)) + b (ix2 0 c)

/-- The same pre-activation from the weights as given, `wih` [512, 128], and the two bias vectors added in turn:
    `(h · wihᵀ + bih) + bhh`. -/
def gateRefAt (h : FVec Ideal S100000x128 .f32) (wih : FVec Ideal S512x128 .f32) (bih bhh : FVec Ideal S512 .f32)
    (r : Fin 100000) (c : Fin 512) : EReal :=
  ((∑ k : Fin 128, h (ix2 r k) * wih (ix2 c k)) + bih (ix1 c)) + bhh (ix1 c)

/-- The LSTM cell's output at hidden unit `l` from a row's pre-activations `g`, started from a zero state:
    `σ(o) · tanh (σ(i) · tanh ĉ)`. -/
def cellAt (g : Fin 512 → EReal) (l : Fin 128) : EReal :=
  Ideal.logistic (g ⟨l.val + 384, by omega⟩)
    * Ideal.tanh (Ideal.logistic (g ⟨l.val, by omega⟩) * Ideal.tanh (g ⟨l.val + 256, by omega⟩))

/-- The two directions' outputs side by side: columns 0–127 forward (from `gf`), 128–255 backward (from `gb`). -/
def biOf (gf gb : Fin 512 → EReal) (l : Fin 256) : EReal :=
  if hl : l.val < 128 then cellAt gf ⟨l.val, hl⟩ else cellAt gb ⟨l.val - 128, by omega⟩

/-- The perceptron's hidden layer at unit `j`: `max (bi · W₁ + b₁, 0)`. -/
def hidOf (gf gb : Fin 512 → EReal) (w1 : FVec Ideal S256x64 .f32) (b1 : Fin 64 → EReal) (j : Fin 64) : EReal :=
  max ((∑ l : Fin 256, biOf gf gb l * w1 (ix2 l j)) + b1 j) zeroE

/-- The head's one output of a row: `hid · W₂ + b₂`. -/
def outOf (gf gb : Fin 512 → EReal) (w1 : FVec Ideal S256x64 .f32) (b1 : Fin 64 → EReal)
    (w2 : FVec Ideal S64x1 .f32) (b2 : EReal) : EReal :=
  (∑ j : Fin 64, hidOf gf gb w1 b1 j * w2 (ix2 j 0)) + b2

/-- The head as an array of one column, from transposed weights and bias rows. -/
def headK (h : FVec Ideal S100000x128 .f32) (wf : FVec Ideal S128x512 .f32) (bf : FVec Ideal S1x512 .f32)
    (wb : FVec Ideal S128x512 .f32) (bb : FVec Ideal S1x512 .f32)
    (w1 : FVec Ideal S256x64 .f32) (b1 : FVec Ideal S1x64 .f32)
    (w2 : FVec Ideal S64x1 .f32) (b2 : FVec Ideal S1x1 .f32) : FVec Ideal S100000x1 .f32 :=
  fun i => outOf (gateAt h wf bf (i 0)) (gateAt h wb bb (i 0)) w1 (fun j => b1 (ix2 0 j)) w2 (b2 (ix2 0 0))

/-- The head as an array of one column, from the weights and bias vectors as given. -/
def headR (h : FVec Ideal S100000x128 .f32)
    (wihf : FVec Ideal S512x128 .f32) (bihf bhhf : FVec Ideal S512 .f32)
    (wihb : FVec Ideal S512x128 .f32) (bihb bhhb : FVec Ideal S512 .f32)
    (w1 : FVec Ideal S256x64 .f32) (b1 : FVec Ideal S64 .f32)
    (w2 : FVec Ideal S64x1 .f32) (b2 : FVec Ideal S1 .f32) : FVec Ideal S100000x1 .f32 :=
  fun i => outOf (gateRefAt h wihf bihf bhhf (i 0)) (gateRefAt h wihb bihb bhhb (i 0)) w1 (fun j => b1 (ix1 j)) w2 (b2 (ix1 0))

end Cert.Gcn

end
-- ==== Proof.RefAgg.lean ====
/-
  The reference's normalised neighbour sum as a function of the edge list and of the features it aggregates.

  In each graph-convolution layer the reference gathers the rows of the layer's dense product at the source nodes, scales
  each by the edge's symmetric normalisation (the product of the two endpoints' inverse square-root degrees), and
  scatter-adds the scaled rows at the destination nodes into a zero array. Everything but the gathered array depends on
  the edge list alone, so each layer's sum is one function `agg` of the edge list and the features.
-/
import proofs.«169956_j53901839565300_1_alg».proof.Proof.Gen.ReferenceIdeal.Read

noncomputable section

namespace Cert.Gcn.RefSide

open Cert.ReferenceIdeal Cert.ReferenceIdeal.Read Idealize.ShloMosaic

variable {F : FTy → Type} [FloatOps F]

/-- The first layer's neighbour sum of the features `xl` over the edge list `e`. -/
def agg1 (e : (⟨S2x1600000, .i32⟩ : BufTy).Contents (Elt F)) (xl : (⟨S100000x128, .f32⟩ : BufTy).Contents (Elt F)) :
    (⟨S100000x128, .f32⟩ : BufTy).Contents (Elt F) :=
  Host.scatterAdd scatter_S100000x128_S1700000x1_S1700000x128_1_0_0_1 (val_main_v40 (F := F)) (val_main_v41 (F := F) e)
    (mulf (Host.gather gather_S100000x128_S1700000x1_S1700000x128_1_0_n_n_0_1_1128 xl (val_main_v35 (F := F) e)) (val_main_v38 (F := F) e))

/-- The second layer's neighbour sum: the same operations, on the layer's own copies of the index and scale arrays. -/
def agg2 (e : (⟨S2x1600000, .i32⟩ : BufTy).Contents (Elt F)) (xl : (⟨S100000x128, .f32⟩ : BufTy).Contents (Elt F)) :
    (⟨S100000x128, .f32⟩ : BufTy).Contents (Elt F) :=
  Host.scatterAdd scatter_S100000x128_S1700000x1_S1700000x128_1_0_0_1 (val_main_v83 (F := F)) (val_main_v84 (F := F) e)
    (mulf (Host.gather gather_S100000x128_S1700000x1_S1700000x128_1_0_n_n_0_1_1128 xl (val_main_v78 (F := F) e)) (val_main_v81 (F := F) e))

/-- The first layer's aggregated array is `agg1` of the edge list and the first dense product. -/
theorem v42_eq (x0 : (⟨S100000x128, .f32⟩ : BufTy).Contents (Elt F)) (x1 : (⟨S2x1600000, .i32⟩ : BufTy).Contents (Elt F))
    (x2 : (⟨S128x128, .f32⟩ : BufTy).Contents (Elt F)) :
    val_main_v42 (F := F) x0 x1 x2 = agg1 x1 (val_main_v4 (F := F) x0 x2) := rfl

/-- The second layer's aggregated array is `agg2` of the edge list and the second dense product. -/
theorem v85_eq (x0 : (⟨S100000x128, .f32⟩ : BufTy).Contents (Elt F)) (x1 : (⟨S2x1600000, .i32⟩ : BufTy).Contents (Elt F))
    (x2 : (⟨S128x128, .f32⟩ : BufTy).Contents (Elt F)) (x3 : (⟨S128, .f32⟩ : BufTy).Contents (Elt F))
    (x4 : (⟨S128x128, .f32⟩ : BufTy).Contents (Elt F)) :
    val_main_v85 (F := F) x0 x1 x2 x3 x4 = agg2 x1 (val_main_v47 (F := F) x0 x1 x2 x3 x4) := rfl

end Cert.Gcn.RefSide

end
-- ==== Proof.Bridge.lean ====
/-
  The two spellings of the bias-and-rectifier and of the head agree.

  A bias vector reshaped to a single row and added to every row is the vector's entry at the column; a weight matrix
  transposed beforehand is read at the swapped coordinates; and adding the sum of two bias vectors is adding them one
  after the other, since addition of extended reals is associative.
-/
import proofs.«169956_j53901839565300_1_alg».proof.Proof.Spec
import Idealize.ShloMosaic.Lib.Pipeline.Value
import Idealize.ShloMosaic.Lib.ValueLayout

noncomputable section

open scoped BigOperators

namespace Cert.Gcn

open Idealize.ShloMosaic Idealize.ShloMosaic.ValueIdx Cert.KernelIdeal

/-- The bias as a [1, 128] row reshaped from a vector of 128, or as that vector: one array. -/
theorem biasRelu_reshape (a : FVec Ideal S100000x128 .f32) (b : FVec Ideal S128 .f32) (h : S128.ShapeCasts S1x128) :
    biasRelu a (shapeCast S1x128 b h) = biasReluR a b := by
  funext i
  obtain ⟨r, c, rfl⟩ : ∃ (r : Fin 100000) (c : Fin 128), i = ix2 r c := ⟨i 0, i 1, eq_ix2 i⟩
  show max (a (ix2 r c) + shapeCast S1x128 b h (ix2 0 c)) zeroE = max (a (ix2 r c) + b (ix1 c)) zeroE
  rw [shapeCast_a_1a_apply]

/-- A direction's pre-activation from the transposed weights and the summed biases is the one from the weights as given
    and the biases added in turn. -/
theorem gateAt_eq_gateRefAt (h : FVec Ideal S100000x128 .f32) (wih : FVec Ideal S512x128 .f32) (bih bhh : FVec Ideal S512 .f32)
    (ht : S512x128.Transposes [1, 0] S128x512) (hc : S512.ShapeCasts S1x512) (r : Fin 100000) (c : Fin 512) :
    gateAt h (transpose S128x512 [1, 0] wih ht) (shapeCast S1x512 (addf bih bhh) hc) r c = gateRefAt h wih bih bhh r c := by
  unfold gateAt gateRefAt
  rw [shapeCast_a_1a_apply, addf_apply, ← add_assoc]
  congr 2
  refine Finset.sum_congr rfl fun k _ => ?_
  rw [transpose_ix2_apply]

/-- The head from transposed weights and bias rows is the head from the weights and bias vectors as given. -/
theorem headK_eq_headR (h : FVec Ideal S100000x128 .f32)
    (wihf : FVec Ideal S512x128 .f32) (bihf bhhf : FVec Ideal S512 .f32)
    (wihb : FVec Ideal S512x128 .f32) (bihb bhhb : FVec Ideal S512 .f32)
    (w1 : FVec Ideal S256x64 .f32) (b1 : FVec Ideal S64 .f32) (w2 : FVec Ideal S64x1 .f32) (b2 : FVec Ideal S1 .f32)
    (ht : S512x128.Transposes [1, 0] S128x512) (hc : S512.ShapeCasts S1x512)
    (h1 : S64.ShapeCasts S1x64) (h2 : S1.ShapeCasts S1x1) :
    headK h (transpose S128x512 [1, 0] wihf ht) (shapeCast S1x512 (addf bihf bhhf) hc)
        (transpose S128x512 [1, 0] wihb ht) (shapeCast S1x512 (addf bihb bhhb) hc)
        w1 (shapeCast S1x64 b1 h1) w2 (shapeCast S1x1 b2 h2)
      = headR h wihf bihf bhhf wihb bihb bhhb w1 b1 w2 b2 := by
  funext i
  unfold headK headR
  have e1 : (fun j : Fin 64 => shapeCast S1x64 b1 h1 (ix2 0 j)) = fun j => b1 (ix1 j) :=
    funext fun j => shapeCast_a_1a_apply b1 h1 0 j
  have e2 : shapeCast S1x1 b2 h2 (ix2 0 0) = b2 (ix1 0) := shapeCast_a_1a_apply b2 h2 0 0
  have gf : gateAt h (transpose S128x512 [1, 0] wihf ht) (shapeCast S1x512 (addf bihf bhhf) hc) (i 0) = gateRefAt h wihf bihf bhhf (i 0) :=
    funext fun c => gateAt_eq_gateRefAt h wihf bihf bhhf ht hc (i 0) c
  have gb : gateAt h (transpose S128x512 [1, 0] wihb ht) (shapeCast S1x512 (addf bihb bhhb) hc) (i 0) = gateRefAt h wihb bihb bhhb (i 0) :=
    funext fun c => gateAt_eq_gateRefAt h wihb bihb bhhb ht hc (i 0) c
  rw [e1, e2, gf, gb]

end Cert.Gcn

end
-- ==== Proof.LibPlainDot.lean ====
/-
  A plain matrix product read at an index, on the extended reals.

  For dimension numbers that contract the left operand's second axis against the right operand's first — an
  [M, K] array times a [K, P] array — the product into a zero accumulator, read at row `p` and column `q`, is
  `Σ k, l (p, k) · r (k, q)` over the K contraction coordinates. The contraction's index set has one axis; the sum is
  re-indexed through that axis's coordinate. The two facts about the free axes (the left index keeps the row, the right
  index keeps the column) are taken as hypotheses, since for given dimension numbers they hold by computation.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The matrix product into the zero accumulator at (p, q) is the sum over the contraction coordinate of the left
    operand at (p, k) times the right operand at (k, q). -/
theorem matmul_zero_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    FloatOps.matmul D prec l r (constant ⟨2, ![M, P]⟩ .f32 0x00000000#32) (ix2 p q)
      = ∑ k : Fin K, l (ix2 p k) * r (ix2 k q) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibPlainDot

end
-- ==== Proof.RegionLin.lean ====
/-
  The two dense layers' output arrays, as whole-array functions of what the region finds in its input arrays.

  A dense layer runs over 100 grid points. Point t reads rows 1000 t … 1000 t + 999 of the input array and the whole
  128 × 128 weight matrix, and writes the same rows of the output array with the block product. Read at (p, q) the
  block product is Σ k, x (p, k) · W (k, q); row p of point t's block is row 1000 t + p of the array; the 100 blocks
  tile the array and every point writes its block back. So the output array ends as the product of the two input
  arrays, index by index.
-/
import proofs.«169956_j53901839565300_1_alg».proof.Proof.Gen.KernelIdeal.Frame
import proofs.«169956_j53901839565300_1_alg».proof.Proof.Spec
import proofs.«169956_j53901839565300_1_alg».proof.Proof.LibPlainDot
import Idealize.ShloMosaic.Lib.Pipeline.Value

noncomputable section

open scoped BigOperators

namespace Cert.Gcn.KernelSide

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block load or store, as a constant function. -/
theorem zero_off_lin : (![0, 0] : Fin 2 → Nat) = fun _ => 0 := funext fun a => by fin_cases a <;> rfl

/-! ## The block product at an index -/

/-- In the plain product's dimension numbers the left index keeps the output's row. -/
theorem dot_lhs_row (j : S1000x128.Idx) (c : dot_S1000x128_S128x128_S1000x128_1_0_0_1_n_n.contr.Idx) :
    (dot_S1000x128_S128x128_S1000x128_1_0_0_1_n_n.lhsIdx j c 0).val = (j 0).val := by
  unfold DotDims.lhsIdx
  rw [dif_neg (show ¬(0 : Fin S1000x128.rank) ∈ dot_S1000x128_S128x128_S1000x128_1_0_0_1_n_n.lhsBatch by decide), dif_pos (show (0 : Fin S1000x128.rank) ∈ dot_S1000x128_S128x128_S1000x128_1_0_0_1_n_n.lhsNonContracting by decide)]
  rfl

/-- The right index keeps the output's column. -/
theorem dot_rhs_col (j : S1000x128.Idx) (c : dot_S1000x128_S128x128_S1000x128_1_0_0_1_n_n.contr.Idx) :
    (dot_S1000x128_S128x128_S1000x128_1_0_0_1_n_n.rhsIdx j c 1).val = (j 1).val := by
  unfold DotDims.rhsIdx
  rw [dif_neg (show ¬(1 : Fin S128x128.rank) ∈ dot_S1000x128_S128x128_S1000x128_1_0_0_1_n_n.rhsBatch by decide), dif_pos (show (1 : Fin S128x128.rank) ∈ dot_S1000x128_S128x128_S1000x128_1_0_0_1_n_n.rhsNonContracting by decide)]
  rfl

/-- The first dense layer's block product at row p, column q: the sum over the 128 input features. -/
theorem k0_pay1_apply (x0 : Vec Ideal S1000x128 .f32) (x1 : Vec Ideal S128x128 .f32) (p : Fin 1000) (q : Fin 128) :
    k0_pay1 x0 x1 (ix2 p q) = ∑ k : Fin 128, x0 (ix2 p k) * x1 (ix2 k q) := by
  unfold k0_pay1
  exact Cert.LibPlainDot.matmul_zero_apply dot_S1000x128_S128x128_S1000x128_1_0_0_1_n_n rfl rfl dot_lhs_row dot_rhs_col rfl rfl none x0 x1 p q

/-- The second dense layer's block product at row p, column q: the sum over the 128 input features. -/
theorem k2_pay1_apply (x0 : Vec Ideal S1000x128 .f32) (x1 : Vec Ideal S128x128 .f32) (p : Fin 1000) (q : Fin 128) :
    k2_pay1 x0 x1 (ix2 p q) = ∑ k : Fin 128, x0 (ix2 p k) * x1 (ix2 k q) := by
  unfold k2_pay1
  rw [shapeCast_self]
  exact Cert.LibPlainDot.matmul_zero_apply dot_S1000x128_S128x128_S1000x128_1_0_0_1_n_n rfl rfl dot_lhs_row dot_rhs_col rfl rfl none x0 x1 p q

/-! ## The first dense layer: region 0 -/

/-- The first dense layer's index maps over its 100 grid points: the row blocks of the input and of the output are the point's
    own, the weight matrix is one block. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two arrays as the region finds them: row p of the
    block is row 1000 t + p of the array, and the weight matrix is read whole. -/
theorem flushed0_eq (c : Dev nD) (t : Fin cfg0.N) :
    (dat0 (F := Ideal) V c).flushed 2 t = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero zero_off_lin]
  simp only [View.ld_unit_zero (S := S1000x128) zero_off_lin, View.ld_unit_zero (S := S128x128) zero_off_lin]
  funext j
  show k0_pay1 (iblk0 V c 0 t) (iblk0 V c 1 t) j
    = Cert.Gcn.lin (V c main_arg0) (V c main_arg2) (((cfg0.win 2).blk t).view.emb j)
  obtain ⟨e0, e1, e2, e3, e4, e5⟩ := idx_facts0 t
  obtain ⟨p, q, rfl⟩ : ∃ (p : Fin 1000) (q : Fin 128), j = ix2 p q := ⟨j 0, j 1, eq_ix2 j⟩
  have hp : p.val < 1000 := p.isLt
  have ht : t.val < 100 := by have h := t.isLt; have hN : cfg0.N = 100 := N_0; omega
  obtain ⟨r, hr⟩ : ∃ r : Fin 100000, r.val = t.val * 1000 + p.val := ⟨⟨t.val * 1000 + p.val, by omega⟩, rfl⟩
  have hE : ((cfg0.win 2).blk t).view.emb (ix2 p q) = ix2 r q := by
    funext a; apply Fin.ext
    match a with
    | ⟨0, _⟩ => show win0_2.index t (0 : Fin 2) * 1000 + 1 * p.val = r.val; omega
    | ⟨1, _⟩ => show win0_2.index t (1 : Fin 2) * 128 + 1 * q.val = q.val; omega
  have h0 : ∀ k : Fin 128, ((cfg0.win 0).blk t).view.emb (ix2 p k) = ix2 r k := fun k => by
    funext a; apply Fin.ext
    match a with
    | ⟨0, _⟩ => show win0_0.index t (0 : Fin 2) * 1000 + 1 * p.val = r.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have key : ∀ (x : Vec Ideal S100000x128 .f32) (W : Vec Ideal S128x128 .f32) (k : Fin 128),
      x (((cfg0.win 0).blk t).view.emb (ix2 p k)) * W (((cfg0.win 1).blk t).view.emb (ix2 k q))
        = x (ix2 r k) * W (ix2 k q) := fun x W k => by rw [h0 k, h1 k]
  rw [hE]
  refine (k0_pay1_apply _ _ p q).trans ?_
  exact Finset.sum_congr rfl fun k _ => key (V c main_arg0) (V c main_arg2) k

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v30).slice (win0_2.rect t)).set ↔ _
  rw [View.set_slice_whole, Rect.mem_set_unit]
  exact Iff.rfl

/-- The 100 blocks of 1000 rows tile the output array: row r is in the block of point r / 1000, and every point
    writes its block back. -/
theorem cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 100 := N_0
  obtain ⟨t, ht⟩ : ∃ t : Fin cfg0.N, t.val = (i 0).val / 1000 := ⟨⟨(i 0).val / 1000, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- The first dense layer's output array after the region: the product of its two input arrays. -/
theorem region0_final (c : Dev nD) :
    (dat0 (F := Ideal) V c).arrAt 2 cfg0.N = Cert.Gcn.lin (V c main_arg0) (V c main_arg2) :=
  (dat0 V c).arrAt_eq_of_cover 2 (Cert.Gcn.lin (V c main_arg0) (V c main_arg2)) (fun t _ => flushed0_eq V c t) cover0

/-! ## The second dense layer: region 2 -/

/-- The second dense layer's index maps over its 100 grid points: the row blocks of the input and of the output are the point's
    own, the weight matrix is one block. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the two arrays as the region finds them: row p of the
    block is row 1000 t + p of the array, and the weight matrix is read whole. -/
theorem flushed2_eq (c : Dev nD) (t : Fin cfg2.N) :
    (dat2 (F := Ideal) V c).flushed 2 t = ((cfg2.win 2).blk t).view.read (Elt Ideal) (Cert.Gcn.lin (V c main_v44) (V c main_arg4)) := by
  show (cfg2.win 2).cut (grid2.coords t) ((dat2 V c).after 2 t) = _
  rw [after2_2]
  unfold out2_2
  rw [View.canon_unit_zero zero_off_lin]
  simp only [View.ld_unit_zero (S := S1000x128) zero_off_lin, View.ld_unit_zero (S := S128x128) zero_off_lin]
  funext j
  show k2_pay1 (iblk2 V c 0 t) (iblk2 V c 1 t) j
    = Cert.Gcn.lin (V c main_v44) (V c main_arg4) (((cfg2.win 2).blk t).view.emb j)
  obtain ⟨e0, e1, e2, e3, e4, e5⟩ := idx_facts2 t
  obtain ⟨p, q, rfl⟩ : ∃ (p : Fin 1000) (q : Fin 128), j = ix2 p q := ⟨j 0, j 1, eq_ix2 j⟩
  have hp : p.val < 1000 := p.isLt
  have ht : t.val < 100 := by have h := t.isLt; have hN : cfg2.N = 100 := N_2; omega
  obtain ⟨r, hr⟩ : ∃ r : Fin 100000, r.val = t.val * 1000 + p.val := ⟨⟨t.val * 1000 + p.val, by omega⟩, rfl⟩
  have hE : ((cfg2.win 2).blk t).view.emb (ix2 p q) = ix2 r q := by
    funext a; apply Fin.ext
    match a with
    | ⟨0, _⟩ => show win2_2.index t (0 : Fin 2) * 1000 + 1 * p.val = r.val; omega
    | ⟨1, _⟩ => show win2_2.index t (1 : Fin 2) * 128 + 1 * q.val = q.val; omega
  have h0 : ∀ k : Fin 128, ((cfg2.win 0).blk t).view.emb (ix2 p k) = ix2 r k := fun k => by
    funext a; apply Fin.ext
    match a with
    | ⟨0, _⟩ => show win2_0.index t (0 : Fin 2) * 1000 + 1 * p.val = r.val; omega
    | ⟨1, _⟩ => show win2_0.index t (1 : Fin 2) * 128 + 1 * k.val = k.val; omega
  have h1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have key : ∀ (x : Vec Ideal S100000x128 .f32) (W : Vec Ideal S128x128 .f32) (k : Fin 128),
      x (((cfg2.win 0).blk t).view.emb (ix2 p k)) * W (((cfg2.win 1).blk t).view.emb (ix2 k q))
        = x (ix2 r k) * W (ix2 k q) := fun x W k => by rw [h0 k, h1 k]
  rw [hE]
  refine (k2_pay1_apply _ _ p q).trans ?_
  exact Finset.sum_congr rfl fun k _ => key (V c main_v44) (V c main_arg4) k

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S1000x128.size a ≤ (i a).val ∧ (i a).val < win2_2.index t a * S1000x128.size a + S1000x128.size a := by
  show i ∈ ((View.whole main_v45).slice (win2_2.rect t)).set ↔ _
  rw [View.set_slice_whole, Rect.mem_set_unit]
  exact Iff.rfl

/-- The 100 blocks of 1000 rows tile the output array: row r is in the block of point r / 1000, and every point
    writes its block back. -/
theorem cover2 (i : S100000x128.Idx) :
    ∃ t : Fin cfg2.N, (cfg2.win 2).flush t = true ∧ i ∈ ((cfg2.win 2).blk t).view.set := by
  have hi0 : (i 0).val < 100000 := idx2_lt0 i
  have hi1 : (i 1).val < 128 := idx2_lt1 i
  have hN : cfg2.N = 100 := N_2
  obtain ⟨t, ht⟩ : ∃ t : Fin cfg2.N, t.val = (i 0).val / 1000 := ⟨⟨(i 0).val / 1000, by omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 1000 ≤ (i 0).val ∧ (i 0).val < win2_2.index t (0 : Fin 2) * 1000 + 1000; omega
  | ⟨1, _⟩ => show win2_2.index t (1 : Fin 2) * 128 ≤ (i 1).val ∧ (i 1).val < win2_2.index t (1 : Fin 2) * 128 + 128; omega

/-- The second dense layer's output array after the region: the product of its two input arrays. -/
theorem region2_final (c : Dev nD) :
    (dat2 (F := Ideal) V c).arrAt 2 cfg2.N = Cert.Gcn.lin (V c main_v44) (V c main_arg4) :=
  (dat2 V c).arrAt_eq_of_cover 2 (Cert.Gcn.lin (V c main_v44) (V c main_arg4)) (fun t _ => flushed2_eq V c t) cover2

end Cert.Gcn.KernelSide

end
-- ==== Proof.RegionBias.lean ====
/-
  The two bias-and-rectifier layers' output arrays, as whole-array functions of what the region finds in its input arrays.

  A bias-and-rectifier layer runs over 100 grid points. Point t reads rows 1000 t … 1000 t + 999 of the input array
  and the whole [1, 128] bias row, and writes the same rows of the output array with max (x + b, 0), the bias row added
  to every row of the block. Row p of point t's block is row 1000 t + p of the array; the 100 blocks tile the array and
  every point writes its block back. So the output array ends as max (a + b, 0) of the two input arrays, index by index.
-/
import proofs.«169956_j53901839565300_1_alg».proof.Proof.Gen.KernelIdeal.Frame
import proofs.«169956_j53901839565300_1_alg».proof.Proof.Spec
import Idealize.ShloMosaic.Lib.Pipeline.Value
import Idealize.ShloMosaic.Lib.ValueLayout

noncomputable section

open scoped BigOperators

namespace Cert.Gcn.KernelSide

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-- The zero offsets of a whole-block load or store, as a constant function. -/
theorem zero_off_bias : (![0, 0] : Fin 2 → Nat) = fun _ => 0 := funext fun a => by fin_cases a <;> rfl

/-! ## The block's bias-and-rectifier at an index -/

/-- The first bias-and-rectifier block at row p, column q: the block plus the bias row, then the maximum with +0. -/
theorem k1_pay1_apply (x0 : Vec Ideal S1000x128 .f32) (x1 : Vec Ideal S1x128 .f32) (p : Fin 1000) (q : Fin 128) :
    k1_pay1 x0 x1 (ix2 p q) = max (x0 (ix2 p q) + x1 (ix2 0 q)) (Ideal.ofBits .f32 0x00000000#32) := by
  unfold k1_pay1
  rw [shapeCast_self, shapeCast_self, maximumf_apply, addf_apply, broadcastTo_1b_ab_apply, broadcast_apply]
  rfl

/-- The second bias-and-rectifier block at row p, column q: the block plus the bias row, then the maximum with +0. -/
theorem k3_pay1_apply (x0 : Vec Ideal S1000x128 .f32) (x1 : Vec Ideal S1x128 .f32) (p : Fin 1000) (q : Fin 128) :
    k3_pay1 x0 x1 (ix2 p q) = max (x0 (ix2 p q) + x1 (ix2 0 q)) (Ideal.ofBits .f32 0x00000000#32) := by
  unfold k3_pay1
  rw [shapeCast_self, shapeCast_self, maximumf_apply, addf_apply, broadcastTo_1b_ab_apply, broadcast_apply]
  rfl

/-! ## The first bias-and-rectifier: region 1 -/

/-- The first bias-and-rectifier's index maps over its 100 grid points: the row blocks of the input and of the output are the point's
    own, the bias row is one block. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point t writes back is block t of max (a + b, 0) of the two arrays as the region finds them: row p of the
    block is row 1000 t + p of the array, and the bias row is read whole. -/
theorem flushed1_eq (c : Dev nD) (t : Fin cfg1.N) :
    (dat1 (F := Ideal) V c).flushed 2 t = ((cfg1.win 2).blk t).view.read (Elt Ideal) (Cert.Gcn.biasRelu (V c main_v42) (V c main_v43)) := by
  show (cfg1.win 2).cut (grid1.coords t) ((dat1 V c).after 2 t) = _
  rw [after1_2]
  unfold out1_2
  rw [View.canon_unit_zero zero_off_bias]
  simp only [View.ld_unit_zero (S := S1000x128) zero_off_bias, View.ld_unit_zero (S := S1x128) zero_off_bias]
  funext j
  show k1_pay1 (iblk1 V c 0 t) (iblk1 V c 1 t) j
    = Cert.Gcn.biasRelu (V c main_v42) (V c main_v43) (((cfg1.win 2).blk t).view.emb j)
  obtain ⟨e0, e1, e2, e3, e4, e5⟩ := idx_facts1 t
  obtain ⟨p, q, rfl⟩ : ∃ (p : Fin 1000) (q : Fin 128), j = ix2 p q := ⟨j 0, j 1, eq_ix2 j⟩
  have hp : p.val < 1000 := p.isLt
  have ht : t.val < 100 := by have h := t.isLt; have hN : cfg1.N = 100 := N_1; omega
  obtain ⟨r, hr⟩ : ∃ r : Fin 100000, r.val = t.val * 1000 + p.val := ⟨⟨t.val * 1000 + p.val, by omega⟩, rfl⟩
  have hE : ((cfg1.win 2).blk t).view.emb (ix2 p q) = ix2 r q := by
    funext a; apply Fin.ext
    match a with
    | ⟨0, _⟩ => show win1_2.index t (0 : Fin 2) * 1000 + 1 * p.val = r.val; omega
    | ⟨1, _⟩ => show win1_2.index t (1 : Fin 2) * 128 + 1 * q.val = q.val; omega
  have h0 : ((cfg1.win 0).blk t).view.emb (ix2 p q) = ix2 r q := by
    funext a; apply Fin.ext
    match a with
    | ⟨0, _⟩ => show win1_0.index t (0 : Fin 2) * 1000 + 1 * p.val = r.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have key : ∀ (x : Vec Ideal S100000x128 .f32) (b : Vec Ideal S1x128 .f32),
      max (x (((cfg1.win 0).blk t).view.emb (ix2 p q)) + b (((cfg1.win 1).blk t).view.emb (ix2 (0 : Fin 1) q)))
          (Ideal.ofBits .f32 0x00000000#32)
        = max (x (ix2 r q) + b (ix2 (0 : Fin 1) q)) (Ideal.ofBits .f32 0x00000000#32) := fun x b => by rw [h0, h1]
  rw [hE]
  refine (k1_pay1_apply _ _ p q).trans ?_
  exact key (V c main_v42) (V c main_v43)

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S1000x128.size a ≤ (i a).val ∧ (i a).val < win1_2.index t a * S1000x128.size a + S1000x128.size a := by
  show i ∈ ((View.whole main_v44).slice (win1_2.rect t)).set ↔ _
  rw [View.set_slice_whole, Rect.mem_set_unit]
  exact Iff.rfl

/-- The 100 blocks of 1000 rows tile the output array: row r is in the block of point r / 1000, and every point
    writes its block back. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : cfg1.N = 100 := N_1
  obtain ⟨t, ht⟩ : ∃ t : Fin cfg1.N, t.val = (i 0).val / 1000 := ⟨⟨(i 0).val / 1000, by omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 1000 ≤ (i 0).val ∧ (i 0).val < win1_2.index t (0 : Fin 2) * 1000 + 1000; omega
  | ⟨1, _⟩ => show win1_2.index t (1 : Fin 2) * 128 ≤ (i 1).val ∧ (i 1).val < win1_2.index t (1 : Fin 2) * 128 + 128; omega

/-- The first bias-and-rectifier's output array after the region: max (a + b, 0) of its two input arrays. -/
theorem region1_final (c : Dev nD) :
    (dat1 (F := Ideal) V c).arrAt 2 cfg1.N = Cert.Gcn.biasRelu (V c main_v42) (V c main_v43) :=
  (dat1 V c).arrAt_eq_of_cover 2 (Cert.Gcn.biasRelu (V c main_v42) (V c main_v43)) (fun t _ => flushed1_eq V c t) cover1

/-! ## The second bias-and-rectifier: region 3 -/

/-- The second bias-and-rectifier's index maps over its 100 grid points: the row blocks of the input and of the output are the point's
    own, the bias row is one block. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point t writes back is block t of max (a + b, 0) of the two arrays as the region finds them: row p of the
    block is row 1000 t + p of the array, and the bias row is read whole. -/
theorem flushed3_eq (c : Dev nD) (t : Fin cfg3.N) :
    (dat3 (F := Ideal) V c).flushed 2 t = ((cfg3.win 2).blk t).view.read (Elt Ideal) (Cert.Gcn.biasRelu (V c main_v57) (V c main_v58)) := by
  show (cfg3.win 2).cut (grid3.coords t) ((dat3 V c).after 2 t) = _
  rw [after3_2]
  unfold out3_2
  rw [View.canon_unit_zero zero_off_bias]
  simp only [View.ld_unit_zero (S := S1000x128) zero_off_bias, View.ld_unit_zero (S := S1x128) zero_off_bias]
  funext j
  show k3_pay1 (iblk3 V c 0 t) (iblk3 V c 1 t) j
    = Cert.Gcn.biasRelu (V c main_v57) (V c main_v58) (((cfg3.win 2).blk t).view.emb j)
  obtain ⟨e0, e1, e2, e3, e4, e5⟩ := idx_facts3 t
  obtain ⟨p, q, rfl⟩ : ∃ (p : Fin 1000) (q : Fin 128), j = ix2 p q := ⟨j 0, j 1, eq_ix2 j⟩
  have hp : p.val < 1000 := p.isLt
  have ht : t.val < 100 := by have h := t.isLt; have hN : cfg3.N = 100 := N_3; omega
  obtain ⟨r, hr⟩ : ∃ r : Fin 100000, r.val = t.val * 1000 + p.val := ⟨⟨t.val * 1000 + p.val, by omega⟩, rfl⟩
  have hE : ((cfg3.win 2).blk t).view.emb (ix2 p q) = ix2 r q := by
    funext a; apply Fin.ext
    match a with
    | ⟨0, _⟩ => show win3_2.index t (0 : Fin 2) * 1000 + 1 * p.val = r.val; omega
    | ⟨1, _⟩ => show win3_2.index t (1 : Fin 2) * 128 + 1 * q.val = q.val; omega
  have h0 : ((cfg3.win 0).blk t).view.emb (ix2 p q) = ix2 r q := by
    funext a; apply Fin.ext
    match a with
    | ⟨0, _⟩ => show win3_0.index t (0 : Fin 2) * 1000 + 1 * p.val = r.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have key : ∀ (x : Vec Ideal S100000x128 .f32) (b : Vec Ideal S1x128 .f32),
      max (x (((cfg3.win 0).blk t).view.emb (ix2 p q)) + b (((cfg3.win 1).blk t).view.emb (ix2 (0 : Fin 1) q)))
          (Ideal.ofBits .f32 0x00000000#32)
        = max (x (ix2 r q) + b (ix2 (0 : Fin 1) q)) (Ideal.ofBits .f32 0x00000000#32) := fun x b => by rw [h0, h1]
  rw [hE]
  refine (k3_pay1_apply _ _ p q).trans ?_
  exact key (V c main_v57) (V c main_v58)

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S1000x128.size a ≤ (i a).val ∧ (i a).val < win3_2.index t a * S1000x128.size a + S1000x128.size a := by
  show i ∈ ((View.whole main_v59).slice (win3_2.rect t)).set ↔ _
  rw [View.set_slice_whole, Rect.mem_set_unit]
  exact Iff.rfl

/-- The 100 blocks of 1000 rows tile the output array: row r is in the block of point r / 1000, and every point
    writes its block back. -/
theorem cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 100 := N_3
  obtain ⟨t, ht⟩ : ∃ t : Fin cfg3.N, t.val = (i 0).val / 1000 := ⟨⟨(i 0).val / 1000, by omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 1000 ≤ (i 0).val ∧ (i 0).val < win3_2.index t (0 : Fin 2) * 1000 + 1000; omega
  | ⟨1, _⟩ => show win3_2.index t (1 : Fin 2) * 128 ≤ (i 1).val ∧ (i 1).val < win3_2.index t (1 : Fin 2) * 128 + 128; omega

/-- The second bias-and-rectifier's output array after the region: max (a + b, 0) of its two input arrays. -/
theorem region3_final (c : Dev nD) :
    (dat3 (F := Ideal) V c).arrAt 2 cfg3.N = Cert.Gcn.biasRelu (V c main_v57) (V c main_v58) :=
  (dat3 V c).arrAt_eq_of_cover 2 (Cert.Gcn.biasRelu (V c main_v57) (V c main_v58)) (fun t _ => flushed3_eq V c t) cover3

end Cert.Gcn.KernelSide

end
-- ==== Proof.RegionsDense.lean ====
/-
  The four small layers' output arrays together: the two dense layers (the product of the input array with the weight
  matrix) and the two bias-and-rectifier layers (max (a + b, 0) with b a single row), each as one function of the arrays
  its region finds.
-/
import proofs.«169956_j53901839565300_1_alg».proof.Proof.RegionLin
import proofs.«169956_j53901839565300_1_alg».proof.Proof.RegionBias
-- ==== Proof.HeadOps.lean ====
/-
  The last kernel's non-pointwise operations, each read at a row and a column.

  A block of 1000 rows goes through three matrix products into a zero accumulator, three bias rows broadcast over the
  rows, three column ranges of a [1000, 512] array, and one side-by-side join of two [1000, 128] arrays. Each is read
  here at literal coordinates: a product as the sum over its contraction coordinate, a broadcast row as its one row, a
  column range as a shifted column, the join by which half the column falls in.
-/
import proofs.«169956_j53901839565300_1_alg».proof.Proof.Gen.KernelIdeal.Skeleton
import proofs.«169956_j53901839565300_1_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gcn.KernelSide

open Cert.KernelIdeal Cert.KernelIdeal.Gen Idealize.ShloMosaic Idealize.ShloMosaic.ValueIdx

/-! ## The three matrix products at a row and a column -/

/-- The [1000, 128] × [128, 512] product into zero at (p, q): the sum over the 128 contraction coordinates. -/
theorem dot512_apply (l : FVec Ideal S1000x128 .f32) (r : FVec Ideal S128x512 .f32) (p : Fin 1000) (q : Fin 512) :
    matmul dot_S1000x128_S128x512_S1000x512_1_0_0_1_n_n none l r (constant S1000x512 .f32 0x00000000#32) (ix2 p q)
      = ∑ k : Fin 128, l (ix2 p k) * r (ix2 k q) :=
  Cert.LibPlainDot.matmul_zero_apply dot_S1000x128_S128x512_S1000x512_1_0_0_1_n_n rfl rfl
    (fun j c => by
      unfold DotDims.lhsIdx
      rw [dif_neg (show ¬(0 : Fin S1000x128.rank) ∈ dot_S1000x128_S128x512_S1000x512_1_0_0_1_n_n.lhsBatch by decide),
        dif_pos (show (0 : Fin S1000x128.rank) ∈ dot_S1000x128_S128x512_S1000x512_1_0_0_1_n_n.lhsNonContracting by decide)]
      rfl)
    (fun j c => by
      unfold DotDims.rhsIdx
      rw [dif_neg (show ¬(1 : Fin S128x512.rank) ∈ dot_S1000x128_S128x512_S1000x512_1_0_0_1_n_n.rhsBatch by decide),
        dif_pos (show (1 : Fin S128x512.rank) ∈ dot_S1000x128_S128x512_S1000x512_1_0_0_1_n_n.rhsNonContracting by decide)]
      rfl)
    rfl rfl none l r p q

/-- The [1000, 256] × [256, 64] product into zero at (p, q): the sum over the 256 contraction coordinates. -/
theorem dot64_apply (l : FVec Ideal S1000x256 .f32) (r : FVec Ideal S256x64 .f32) (p : Fin 1000) (q : Fin 64) :
    matmul dot_S1000x256_S256x64_S1000x64_1_0_0_1_n_n none l r (constant S1000x64 .f32 0x00000000#32) (ix2 p q)
      = ∑ k : Fin 256, l (ix2 p k) * r (ix2 k q) :=
  Cert.LibPlainDot.matmul_zero_apply dot_S1000x256_S256x64_S1000x64_1_0_0_1_n_n rfl rfl
    (fun j c => by
      unfold DotDims.lhsIdx
      rw [dif_neg (show ¬(0 : Fin S1000x256.rank) ∈ dot_S1000x256_S256x64_S1000x64_1_0_0_1_n_n.lhsBatch by decide),
        dif_pos (show (0 : Fin S1000x256.rank) ∈ dot_S1000x256_S256x64_S1000x64_1_0_0_1_n_n.lhsNonContracting by decide)]
      rfl)
    (fun j c => by
      unfold DotDims.rhsIdx
      rw [dif_neg (show ¬(1 : Fin S256x64.rank) ∈ dot_S1000x256_S256x64_S1000x64_1_0_0_1_n_n.rhsBatch by decide),
        dif_pos (show (1 : Fin S256x64.rank) ∈ dot_S1000x256_S256x64_S1000x64_1_0_0_1_n_n.rhsNonContracting by decide)]
      rfl)
    rfl rfl none l r p q

/-- The [1000, 64] × [64, 1] product into zero at (p, q): the sum over the 64 contraction coordinates. -/
theorem dot1_apply (l : FVec Ideal S1000x64 .f32) (r : FVec Ideal S64x1 .f32) (p : Fin 1000) (q : Fin 1) :
    matmul dot_S1000x64_S64x1_S1000x1_1_0_0_1_n_n none l r (constant S1000x1 .f32 0x00000000#32) (ix2 p q)
      = ∑ k : Fin 64, l (ix2 p k) * r (ix2 k q) :=
  Cert.LibPlainDot.matmul_zero_apply dot_S1000x64_S64x1_S1000x1_1_0_0_1_n_n rfl rfl
    (fun j c => by
      unfold DotDims.lhsIdx
      rw [dif_neg (show ¬(0 : Fin S1000x64.rank) ∈ dot_S1000x64_S64x1_S1000x1_1_0_0_1_n_n.lhsBatch by decide),
        dif_pos (show (0 : Fin S1000x64.rank) ∈ dot_S1000x64_S64x1_S1000x1_1_0_0_1_n_n.lhsNonContracting by decide)]
      rfl)
    (fun j c => by
      unfold DotDims.rhsIdx
      rw [dif_neg (show ¬(1 : Fin S64x1.rank) ∈ dot_S1000x64_S64x1_S1000x1_1_0_0_1_n_n.rhsBatch by decide),
        dif_pos (show (1 : Fin S64x1.rank) ∈ dot_S1000x64_S64x1_S1000x1_1_0_0_1_n_n.rhsNonContracting by decide)]
      rfl)
    rfl rfl none l r p q

/-! ## A bias row broadcast over the block's rows -/

/-- A [1, 512] row, cast to its own shape and broadcast to [1000, 512], reads its column at every row. -/
theorem bias512_apply (b : FVec Ideal S1x512 .f32) (p : Fin 1000) (q : Fin 512) :
    broadcastTo S1000x512 (shapeCast S1x512 b shapeCasts_S1x512_S1x512) broadcasts_S1x512_S1000x512 (ix2 p q)
      = b (ix2 0 q) := by
  rw [shapeCast_self]
  exact broadcastTo_1b_ab_apply b _ p q

/-- A [1, 64] row, cast to its own shape and broadcast to [1000, 64], reads its column at every row. -/
theorem bias64_apply (b : FVec Ideal S1x64 .f32) (p : Fin 1000) (q : Fin 64) :
    broadcastTo S1000x64 (shapeCast S1x64 b shapeCasts_S1x64_S1x64) broadcasts_S1x64_S1000x64 (ix2 p q)
      = b (ix2 0 q) := by
  rw [shapeCast_self]
  exact broadcastTo_1b_ab_apply b _ p q

/-- A [1, 1] array, cast to its own shape and broadcast to [1000, 1], reads its one element at every row. -/
theorem bias1_apply (b : FVec Ideal S1x1 .f32) (p : Fin 1000) (q : Fin 1) :
    broadcastTo S1000x1 (shapeCast S1x1 b shapeCasts_S1x1_S1x1) broadcasts_S1x1_S1000x1 (ix2 p q)
      = b (ix2 0 q) := by
  rw [shapeCast_self]
  exact broadcastTo_1b_ab_apply b _ p q

/-! ## The three column ranges of the pre-activations -/

/-- Columns 0–127 of a [1000, 512] array. -/
theorem slice0_apply (v : FVec Ideal S1000x512 .f32) (p : Fin 1000) (l : Fin 128) :
    extractStridedSlice S1000x128 ![0, 0] v slices_S1000x512_o0_0_S1000x128 (ix2 p l)
      = v (ix2 p ⟨l.val, by omega⟩) :=
  slice2_axis1_apply 0 v _ p l _ (Nat.zero_add _).symm

/-- Columns 256–383 of a [1000, 512] array. -/
theorem slice256_apply (v : FVec Ideal S1000x512 .f32) (p : Fin 1000) (l : Fin 128) :
    extractStridedSlice S1000x128 ![0, 256] v slices_S1000x512_o0_256_S1000x128 (ix2 p l)
      = v (ix2 p ⟨l.val + 256, by omega⟩) :=
  slice2_axis1_apply 256 v _ p l _ (Nat.add_comm _ _)

/-- Columns 384–511 of a [1000, 512] array. -/
theorem slice384_apply (v : FVec Ideal S1000x512 .f32) (p : Fin 1000) (l : Fin 128) :
    extractStridedSlice S1000x128 ![0, 384] v slices_S1000x512_o0_384_S1000x128 (ix2 p l)
      = v (ix2 p ⟨l.val + 384, by omega⟩) :=
  slice2_axis1_apply 384 v _ p l _ (Nat.add_comm _ _)

/-! ## Two [1000, 128] arrays side by side -/

/-- A column below 128 of the join is the first array's. -/
theorem join_left (a b : FVec Ideal S1000x128 .f32) (p : Fin 1000) (l : Fin 256) (hl : l.val < 128) :
    concatenate S1000x256 1 [⟨S1000x128, a⟩, ⟨S1000x128, b⟩] concatenates_S1000x128_S1000x128_S1000x256_d1 (ix2 p l)
      = a (ix2 p ⟨l.val, hl⟩) :=
  concatenate_pair_apply_left 1 a b _ (ix2 p l) rfl (ix2 p ⟨l.val, hl⟩) (fun c => by
    match c with
    | ⟨0, _⟩ => rfl
    | ⟨1, _⟩ => rfl)

/-- A column from 128 on of the join is the second array's, 128 less. -/
theorem join_right (a b : FVec Ideal S1000x128 .f32) (p : Fin 1000) (l : Fin 256) (hl : ¬ l.val < 128) :
    concatenate S1000x256 1 [⟨S1000x128, a⟩, ⟨S1000x128, b⟩] concatenates_S1000x128_S1000x128_S1000x256_d1 (ix2 p l)
      = b (ix2 p ⟨l.val - 128, by omega⟩) :=
  concatenate_pair_apply_right 1 a b _ (ix2 p l) rfl rfl (ix2 p ⟨l.val - 128, by omega⟩) (fun c hc => by
    match c with
    | ⟨0, _⟩ => rfl
    | ⟨1, _⟩ => exact absurd rfl hc) (by
      show l.val - 128 + 128 = l.val
      omega)

end Cert.Gcn.KernelSide

end
-- ==== Proof.HeadPayload.lean ====
/-
  The last kernel's body as a function of its loaded blocks, read at one row.

  The body computes, for a block of 1000 rows: each direction's gate pre-activations (the rows times the transposed
  weights, plus the bias row), the LSTM cell from a zero state on three column ranges of them, the two directions'
  cells side by side, the perceptron's hidden layer (a product, a bias row, the rectifier) and its output (a product
  and a bias). Read at a row `p`, step by step: the body's one output at row `p` is the specification's head of the
  row's two pre-activation vectors.
-/
import proofs.«169956_j53901839565300_1_alg».proof.Proof.Spec
import proofs.«169956_j53901839565300_1_alg».proof.Proof.HeadOps

noncomputable section

open scoped BigOperators

namespace Cert.Gcn.KernelSide

open Cert.KernelIdeal Cert.KernelIdeal.Gen Idealize.ShloMosaic Idealize.ShloMosaic.ValueIdx

/-! ## One direction: the pre-activations and the cell -/

/-- One direction's pre-activation of block row `p`, column `c`: the row times the transposed weights, plus the bias. -/
def gateBlk (x : FVec Ideal S1000x128 .f32) (w : FVec Ideal S128x512 .f32) (b : FVec Ideal S1x512 .f32)
    (p : Fin 1000) (c : Fin 512) : EReal :=
  (∑ k : Fin 128, x (ix2 p k) * w (ix2 k c)) + b (ix2 0 c)

/-- One direction's pre-activations as the body computes them, a [1000, 512] array. -/
def gateVec (x : FVec Ideal S1000x128 .f32) (w : FVec Ideal S128x512 .f32) (b : FVec Ideal S1x512 .f32) :
    FVec Ideal S1000x512 .f32 :=
  addf (matmul dot_S1000x128_S128x512_S1000x512_1_0_0_1_n_n none
      (shapeCast S1000x128 x shapeCasts_S1000x128_S1000x128) (shapeCast S128x512 w shapeCasts_S128x512_S128x512)
      (constant S1000x512 .f32 0x00000000#32))
    (broadcastTo S1000x512 (shapeCast S1x512 b shapeCasts_S1x512_S1x512) broadcasts_S1x512_S1000x512)

/-- The computed pre-activations at (p, c). -/
theorem gateVec_apply (x : FVec Ideal S1000x128 .f32) (w : FVec Ideal S128x512 .f32) (b : FVec Ideal S1x512 .f32)
    (p : Fin 1000) (c : Fin 512) : gateVec x w b (ix2 p c) = gateBlk x w b p c := by
  unfold gateVec gateBlk
  rw [shapeCast_self x, shapeCast_self w, addf_apply, dot512_apply, bias512_apply]

/-- The cell as the body computes it from a direction's pre-activations, a [1000, 128] array. -/
def cellVec (g : FVec Ideal S1000x512 .f32) : FVec Ideal S1000x128 .f32 :=
  mulf (logistic (extractStridedSlice S1000x128 ![0, 384] g slices_S1000x512_o0_384_S1000x128))
    (tanh (mulf (logistic (extractStridedSlice S1000x128 ![0, 0] g slices_S1000x512_o0_0_S1000x128))
      (tanh (extractStridedSlice S1000x128 ![0, 256] g slices_S1000x512_o0_256_S1000x128))))

/-- The computed cell at (p, l) is the specification's cell of row `p`'s pre-activations. -/
theorem cellVec_apply (g : FVec Ideal S1000x512 .f32) (p : Fin 1000) (l : Fin 128) :
    cellVec g (ix2 p l) = Cert.Gcn.cellAt (fun c => g (ix2 p c)) l := by
  show Ideal.logistic (extractStridedSlice S1000x128 ![0, 384] g slices_S1000x512_o0_384_S1000x128 (ix2 p l))
      * Ideal.tanh (Ideal.logistic (extractStridedSlice S1000x128 ![0, 0] g slices_S1000x512_o0_0_S1000x128 (ix2 p l))
        * Ideal.tanh (extractStridedSlice S1000x128 ![0, 256] g slices_S1000x512_o0_256_S1000x128 (ix2 p l))) = _
  rw [slice384_apply, slice0_apply, slice256_apply]
  rfl

/-- The two directions' computed cells side by side at (p, l). -/
theorem biVec_apply (gf gb : FVec Ideal S1000x512 .f32) (p : Fin 1000) (l : Fin 256) :
    concatenate S1000x256 1 [⟨S1000x128, cellVec gf⟩, ⟨S1000x128, cellVec gb⟩]
        concatenates_S1000x128_S1000x128_S1000x256_d1 (ix2 p l)
      = Cert.Gcn.biOf (fun c => gf (ix2 p c)) (fun c => gb (ix2 p c)) l := by
  unfold Cert.Gcn.biOf
  split
  · next hl => rw [join_left _ _ p l hl, cellVec_apply]
  · next hl => rw [join_right _ _ p l hl, cellVec_apply]

/-! ## The two payloads -/

/-- The first payload is the hidden layer's product plus its bias row, over the two directions' cells. -/
theorem pay2_eq (x0 : FVec Ideal S1000x128 .f32) (x1 : FVec Ideal S128x512 .f32) (x2 : FVec Ideal S1x512 .f32)
    (x3 : FVec Ideal S128x512 .f32) (x4 : FVec Ideal S1x512 .f32) (x5 : FVec Ideal S256x64 .f32)
    (x6 : FVec Ideal S1x64 .f32) :
    k4_pay2 x0 x1 x2 x3 x4 x5 x6
      = addf (matmul dot_S1000x256_S256x64_S1000x64_1_0_0_1_n_n none
          (concatenate S1000x256 1 [⟨S1000x128, cellVec (gateVec x0 x1 x2)⟩, ⟨S1000x128, cellVec (gateVec x0 x3 x4)⟩]
            concatenates_S1000x128_S1000x128_S1000x256_d1)
          x5 (constant S1000x64 .f32 0x00000000#32))
        (broadcastTo S1000x64 (shapeCast S1x64 x6 shapeCasts_S1x64_S1x64) broadcasts_S1x64_S1000x64) := rfl

/-- The first payload at (p, j): the hidden unit's pre-activation of row `p`. -/
theorem pay2_apply (x0 : FVec Ideal S1000x128 .f32) (x1 : FVec Ideal S128x512 .f32) (x2 : FVec Ideal S1x512 .f32)
    (x3 : FVec Ideal S128x512 .f32) (x4 : FVec Ideal S1x512 .f32) (x5 : FVec Ideal S256x64 .f32)
    (x6 : FVec Ideal S1x64 .f32) (p : Fin 1000) (j : Fin 64) :
    k4_pay2 (F := Ideal) x0 x1 x2 x3 x4 x5 x6 (ix2 p j)
      = (∑ l : Fin 256, Cert.Gcn.biOf (gateBlk x0 x1 x2 p) (gateBlk x0 x3 x4 p) l * x5 (ix2 l j)) + x6 (ix2 0 j) := by
  have ef : (fun c => gateVec x0 x1 x2 (ix2 p c)) = gateBlk x0 x1 x2 p := funext fun c => gateVec_apply x0 x1 x2 p c
  have eb : (fun c => gateVec x0 x3 x4 (ix2 p c)) = gateBlk x0 x3 x4 p := funext fun c => gateVec_apply x0 x3 x4 p c
  rw [pay2_eq, addf_apply, dot64_apply, bias64_apply]
  refine congrArg (· + x6 (ix2 0 j)) (Finset.sum_congr rfl fun l _ => ?_)
  rw [biVec_apply, ef, eb]

/-- The second payload at row `p`: the rectified hidden units times the output weights, plus the output bias. -/
theorem pay1_apply (h : FVec Ideal S1000x64 .f32) (x7 : FVec Ideal S64x1 .f32) (x8 : FVec Ideal S1x1 .f32)
    (p : Fin 1000) :
    k4_pay1 h (Scalar.ofBits .f32 0x00000000#32) x7 x8 (ix2 p 0)
      = (∑ j : Fin 64, max (h (ix2 p j)) Cert.Gcn.zeroE * x7 (ix2 j 0)) + x8 (ix2 0 0) := by
  show matmul dot_S1000x64_S64x1_S1000x1_1_0_0_1_n_n none
        (maximumf h (broadcast S1000x64 (Scalar.ofBits .f32 0x00000000#32))) x7
        (constant S1000x1 .f32 0x00000000#32) (ix2 p 0)
      + broadcastTo S1000x1 (shapeCast S1x1 x8 shapeCasts_S1x1_S1x1) broadcasts_S1x1_S1000x1 (ix2 p 0) = _
  rw [dot1_apply, bias1_apply]
  rfl

/-- THE BODY AT ROW `p`: its one output is the specification's head of the row's two pre-activation vectors. -/
theorem head_payload (x0 : Vec Ideal S1000x128 .f32) (x1 : Vec Ideal S128x512 .f32) (x2 : Vec Ideal S1x512 .f32)
    (x3 : Vec Ideal S128x512 .f32) (x4 : Vec Ideal S1x512 .f32) (x5 : Vec Ideal S256x64 .f32)
    (x6 : Vec Ideal S1x64 .f32) (x7 : Vec Ideal S64x1 .f32) (x8 : Vec Ideal S1x1 .f32) (p : Fin 1000) :
    k4_pay1 (k4_pay2 x0 x1 x2 x3 x4 x5 x6) (Scalar.ofBits .f32 0x00000000#32) x7 x8 (ix2 p 0)
      = Cert.Gcn.outOf (fun c => (∑ k : Fin 128, x0 (ix2 p k) * x1 (ix2 k c)) + x2 (ix2 0 c))
          (fun c => (∑ k : Fin 128, x0 (ix2 p k) * x3 (ix2 k c)) + x4 (ix2 0 c))
          x5 (fun j => x6 (ix2 0 j)) x7 (x8 (ix2 0 0)) := by
  rw [pay1_apply]
  show _ = (∑ j : Fin 64, Cert.Gcn.hidOf (gateBlk x0 x1 x2 p) (gateBlk x0 x3 x4 p) x5 (fun j => x6 (ix2 0 j)) j
      * x7 (ix2 j 0)) + x8 (ix2 0 0)
  refine congrArg (· + x8 (ix2 0 0)) (Finset.sum_congr rfl fun j _ => ?_)
  rw [pay2_apply]
  rfl

/-- THE BODY AT ROW `p` AGAINST THE ARRAY OF ROWS: when row `p` of the rows' block is row `r` of the array `h`, the
    body's output at row `p` is the head array of `h` and the weight and bias blocks at row `r`. -/
theorem head_block (x0 : Vec Ideal S1000x128 .f32) (x1 : Vec Ideal S128x512 .f32) (x2 : Vec Ideal S1x512 .f32)
    (x3 : Vec Ideal S128x512 .f32) (x4 : Vec Ideal S1x512 .f32) (x5 : Vec Ideal S256x64 .f32)
    (x6 : Vec Ideal S1x64 .f32) (x7 : Vec Ideal S64x1 .f32) (x8 : Vec Ideal S1x1 .f32)
    (h : FVec Ideal S100000x128 .f32) (p : Fin 1000) (r : Fin 100000)
    (hrow : ∀ k : Fin 128, x0 (ix2 p k) = h (ix2 r k)) :
    k4_pay1 (k4_pay2 x0 x1 x2 x3 x4 x5 x6) (Scalar.ofBits .f32 0x00000000#32) x7 x8 (ix2 p 0)
      = Cert.Gcn.headK h x1 x2 x3 x4 x5 x6 x7 x8 (ix2 r 0) := by
  have ef : (fun c => (∑ k : Fin 128, x0 (ix2 p k) * x1 (ix2 k c)) + x2 (ix2 0 c)) = Cert.Gcn.gateAt h x1 x2 r :=
    funext fun c => congrArg (· + x2 (ix2 0 c)) (Finset.sum_congr rfl fun k _ => by rw [hrow k])
  have eb : (fun c => (∑ k : Fin 128, x0 (ix2 p k) * x3 (ix2 k c)) + x4 (ix2 0 c)) = Cert.Gcn.gateAt h x3 x4 r :=
    funext fun c => congrArg (· + x4 (ix2 0 c)) (Finset.sum_congr rfl fun k _ => by rw [hrow k])
  rw [head_payload, ef, eb]
  rfl

end Cert.Gcn.KernelSide

end
-- ==== Proof.RegionHead.lean ====
/-
  The last kernel region's output array as one function of the arrays the region finds.

  The region runs the head's body at 100 grid points. At point `t` the body reads rows `1000 t … 1000 t + 999` of the
  node features and the whole of each weight and bias array, and writes rows `1000 t … 1000 t + 999` of the one-column
  output. The windows' block indices are decided once over the grid; each block is read off its array where the block's
  rectangle says (a block's coordinate is its block index times the block size plus the coordinate inside the block); so
  what point `t` writes back is block `t` of the head array. Row `r` of the output lies in point `r / 1000`'s block, so
  the blocks cover the array and after the last point the array is the head array.
-/
import proofs.«169956_j53901839565300_1_alg».proof.Proof.Gen.KernelIdeal.Frame
import proofs.«169956_j53901839565300_1_alg».proof.Proof.Spec
import proofs.«169956_j53901839565300_1_alg».proof.Proof.HeadPayload

noncomputable section

open scoped BigOperators

namespace Cert.Gcn.KernelSide

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer rectangle, as a constant function. -/
theorem zero_offsets : (![0, 0] : Fin 2 → Nat) = fun _ => 0 := funext fun a => by fin_cases a <;> rfl

/-! ## The windows' block indices over the 100 grid points -/

/-- The rows' window and the output's window sit at block row `t`, block column 0. -/
theorem moving_indices : ∀ t : Fin cfg4.N, win4_0.index t (0 : Fin 2) = t.val ∧ win4_0.index t (1 : Fin 2) = 0
    ∧ win4_9.index t (0 : Fin 2) = t.val ∧ win4_9.index t (1 : Fin 2) = 0 :=
  (by decide +kernel : ∀ t : Fin grid4.N, _)

theorem whole_indices1 : ∀ t : Fin cfg4.N, win4_1.index t (0 : Fin 2) = 0 ∧ win4_1.index t (1 : Fin 2) = 0 :=
  (by decide +kernel : ∀ t : Fin grid4.N, _)

theorem whole_indices2 : ∀ t : Fin cfg4.N, win4_2.index t (0 : Fin 2) = 0 ∧ win4_2.index t (1 : Fin 2) = 0 :=
  (by decide +kernel : ∀ t : Fin grid4.N, _)

theorem whole_indices3 : ∀ t : Fin cfg4.N, win4_3.index t (0 : Fin 2) = 0 ∧ win4_3.index t (1 : Fin 2) = 0 :=
  (by decide +kernel : ∀ t : Fin grid4.N, _)

theorem whole_indices4 : ∀ t : Fin cfg4.N, win4_4.index t (0 : Fin 2) = 0 ∧ win4_4.index t (1 : Fin 2) = 0 :=
  (by decide +kernel : ∀ t : Fin grid4.N, _)

theorem whole_indices5 : ∀ t : Fin cfg4.N, win4_5.index t (0 : Fin 2) = 0 ∧ win4_5.index t (1 : Fin 2) = 0 :=
  (by decide +kernel : ∀ t : Fin grid4.N, _)

theorem whole_indices6 : ∀ t : Fin cfg4.N, win4_6.index t (0 : Fin 2) = 0 ∧ win4_6.index t (1 : Fin 2) = 0 :=
  (by decide +kernel : ∀ t : Fin grid4.N, _)

theorem whole_indices7 : ∀ t : Fin cfg4.N, win4_7.index t (0 : Fin 2) = 0 ∧ win4_7.index t (1 : Fin 2) = 0 :=
  (by decide +kernel : ∀ t : Fin grid4.N, _)

theorem whole_indices8 : ∀ t : Fin cfg4.N, win4_8.index t (0 : Fin 2) = 0 ∧ win4_8.index t (1 : Fin 2) = 0 :=
  (by decide +kernel : ∀ t : Fin grid4.N, _)

/-! ## Each block read off its array -/

/-- Row `p` of the rows' block at point `t` is row `1000 t + p` of the array. -/
theorem rows_block_apply (c : Dev nD) (t : Fin cfg4.N) (p : Fin 1000) (k : Fin 128) (r : Fin 100000)
    (hr : r.val = t.val * 1000 + p.val) :
    (iblk4 V c 0 t : Vec Ideal S1000x128 .f32) (ix2 p k) = (V c main_v59 : S100000x128.Idx → EReal) (ix2 r k) := by
  obtain ⟨e0, e1, -, -⟩ := moving_indices t
  show V c main_v59 (((cfg4.win 0).blk t).view.emb (ix2 p k : S1000x128.Idx)) = V c main_v59 (ix2 r k)
  refine congrArg (V c main_v59) ?_
  funext a
  apply Fin.ext
  match a with
  | ⟨0, _⟩ => show win4_0.index t (0 : Fin 2) * 1000 + 1 * p.val = r.val; omega
  | ⟨1, _⟩ => show win4_0.index t (1 : Fin 2) * 128 + 1 * k.val = k.val; omega

/-- The forward weights' block is the whole array at every point. -/
theorem block1_eq (c : Dev nD) (t : Fin cfg4.N) :
    (iblk4 V c 1 t : Vec Ideal S128x512 .f32) = (V c main_v60 : S128x512.Idx → EReal) := by
  obtain ⟨e0, e1⟩ := whole_indices1 t
  funext y
  show V c main_v60 (((cfg4.win 1).blk t).view.emb y) = V c main_v60 y
  refine congrArg (V c main_v60) ?_
  funext a
  apply Fin.ext
  match a with
  | ⟨0, _⟩ => show win4_1.index t (0 : Fin 2) * 128 + 1 * (y 0).val = (y 0).val; omega
  | ⟨1, _⟩ => show win4_1.index t (1 : Fin 2) * 512 + 1 * (y 1).val = (y 1).val; omega

/-- The forward bias row's block is the whole array at every point. -/
theorem block2_eq (c : Dev nD) (t : Fin cfg4.N) :
    (iblk4 V c 2 t : Vec Ideal S1x512 .f32) = (V c main_v63 : S1x512.Idx → EReal) := by
  obtain ⟨e0, e1⟩ := whole_indices2 t
  funext y
  show V c main_v63 (((cfg4.win 2).blk t).view.emb y) = V c main_v63 y
  refine congrArg (V c main_v63) ?_
  funext a
  apply Fin.ext
  match a with
  | ⟨0, _⟩ => show win4_2.index t (0 : Fin 2) * 1 + 1 * (y 0).val = (y 0).val; omega
  | ⟨1, _⟩ => show win4_2.index t (1 : Fin 2) * 512 + 1 * (y 1).val = (y 1).val; omega

/-- The backward weights' block is the whole array at every point. -/
theorem block3_eq (c : Dev nD) (t : Fin cfg4.N) :
    (iblk4 V c 3 t : Vec Ideal S128x512 .f32) = (V c main_v61 : S128x512.Idx → EReal) := by
  obtain ⟨e0, e1⟩ := whole_indices3 t
  funext y
  show V c main_v61 (((cfg4.win 3).blk t).view.emb y) = V c main_v61 y
  refine congrArg (V c main_v61) ?_
  funext a
  apply Fin.ext
  match a with
  | ⟨0, _⟩ => show win4_3.index t (0 : Fin 2) * 128 + 1 * (y 0).val = (y 0).val; omega
  | ⟨1, _⟩ => show win4_3.index t (1 : Fin 2) * 512 + 1 * (y 1).val = (y 1).val; omega

/-- The backward bias row's block is the whole array at every point. -/
theorem block4_eq (c : Dev nD) (t : Fin cfg4.N) :
    (iblk4 V c 4 t : Vec Ideal S1x512 .f32) = (V c main_v65 : S1x512.Idx → EReal) := by
  obtain ⟨e0, e1⟩ := whole_indices4 t
  funext y
  show V c main_v65 (((cfg4.win 4).blk t).view.emb y) = V c main_v65 y
  refine congrArg (V c main_v65) ?_
  funext a
  apply Fin.ext
  match a with
  | ⟨0, _⟩ => show win4_4.index t (0 : Fin 2) * 1 + 1 * (y 0).val = (y 0).val; omega
  | ⟨1, _⟩ => show win4_4.index t (1 : Fin 2) * 512 + 1 * (y 1).val = (y 1).val; omega

/-- The hidden layer's weights' block is the whole array at every point. -/
theorem block5_eq (c : Dev nD) (t : Fin cfg4.N) :
    (iblk4 V c 5 t : Vec Ideal S256x64 .f32) = (V c main_arg14 : S256x64.Idx → EReal) := by
  obtain ⟨e0, e1⟩ := whole_indices5 t
  funext y
  show V c main_arg14 (((cfg4.win 5).blk t).view.emb y) = V c main_arg14 y
  refine congrArg (V c main_arg14) ?_
  funext a
  apply Fin.ext
  match a with
  | ⟨0, _⟩ => show win4_5.index t (0 : Fin 2) * 256 + 1 * (y 0).val = (y 0).val; omega
  | ⟨1, _⟩ => show win4_5.index t (1 : Fin 2) * 64 + 1 * (y 1).val = (y 1).val; omega

/-- The hidden layer's bias row's block is the whole array at every point. -/
theorem block6_eq (c : Dev nD) (t : Fin cfg4.N) :
    (iblk4 V c 6 t : Vec Ideal S1x64 .f32) = (V c main_v66 : S1x64.Idx → EReal) := by
  obtain ⟨e0, e1⟩ := whole_indices6 t
  funext y
  show V c main_v66 (((cfg4.win 6).blk t).view.emb y) = V c main_v66 y
  refine congrArg (V c main_v66) ?_
  funext a
  apply Fin.ext
  match a with
  | ⟨0, _⟩ => show win4_6.index t (0 : Fin 2) * 1 + 1 * (y 0).val = (y 0).val; omega
  | ⟨1, _⟩ => show win4_6.index t (1 : Fin 2) * 64 + 1 * (y 1).val = (y 1).val; omega

/-- The output weights' block is the whole array at every point. -/
theorem block7_eq (c : Dev nD) (t : Fin cfg4.N) :
    (iblk4 V c 7 t : Vec Ideal S64x1 .f32) = (V c main_arg16 : S64x1.Idx → EReal) := by
  obtain ⟨e0, e1⟩ := whole_indices7 t
  funext y
  show V c main_arg16 (((cfg4.win 7).blk t).view.emb y) = V c main_arg16 y
  refine congrArg (V c main_arg16) ?_
  funext a
  apply Fin.ext
  match a with
  | ⟨0, _⟩ => show win4_7.index t (0 : Fin 2) * 64 + 1 * (y 0).val = (y 0).val; omega
  | ⟨1, _⟩ => show win4_7.index t (1 : Fin 2) * 1 + 1 * (y 1).val = (y 1).val; omega

/-- The output bias's block is the whole array at every point. -/
theorem block8_eq (c : Dev nD) (t : Fin cfg4.N) :
    (iblk4 V c 8 t : Vec Ideal S1x1 .f32) = (V c main_v67 : S1x1.Idx → EReal) := by
  obtain ⟨e0, e1⟩ := whole_indices8 t
  funext y
  show V c main_v67 (((cfg4.win 8).blk t).view.emb y) = V c main_v67 y
  refine congrArg (V c main_v67) ?_
  funext a
  apply Fin.ext
  match a with
  | ⟨0, _⟩ => show win4_8.index t (0 : Fin 2) * 1 + 1 * (y 0).val = (y 0).val; omega
  | ⟨1, _⟩ => show win4_8.index t (1 : Fin 2) * 1 + 1 * (y 1).val = (y 1).val; omega

/-- Row `p` of the output's block at point `t` is row `1000 t + p` of the output array. -/
theorem out_block_emb (t : Fin cfg4.N) (p : Fin 1000) (r : Fin 100000) (hr : r.val = t.val * 1000 + p.val) :
    (((cfg4.win 9).blk t).view.emb (ix2 p (0 : Fin 1) : S1000x1.Idx) : S100000x1.Idx) = ix2 r (0 : Fin 1) := by
  obtain ⟨-, -, e0, e1⟩ := moving_indices t
  funext a
  apply Fin.ext
  match a with
  | ⟨0, _⟩ => show win4_9.index t (0 : Fin 2) * 1000 + 1 * p.val = r.val; omega
  | ⟨1, _⟩ => show win4_9.index t (1 : Fin 2) * 1 + 1 * 0 = 0; omega

/-! ## What a point writes back, and the array after the last point -/

/-- WHAT POINT `t` WRITES BACK is block `t` of the head array of the arrays as the region finds them. -/
theorem flushed_head (c : Dev nD) (t : Fin cfg4.N) :
    (dat4 (F := Ideal) V c).flushed 9 t = ((cfg4.win 9).blk t).view.read (Elt Ideal)
      (Cert.Gcn.headK (V c main_v59) (V c main_v60) (V c main_v63) (V c main_v61) (V c main_v65) (V c main_arg14)
        (V c main_v66) (V c main_arg16) (V c main_v67)) := by
  show (cfg4.win 9).cut (grid4.coords t) ((dat4 V c).after 9 t) = _
  rw [after4_9]
  unfold out4_9
  rw [View.canon_unit_zero zero_offsets]
  simp only [View.ld_unit_zero (S := S1000x128) zero_offsets, View.ld_unit_zero (S := S128x512) zero_offsets,
    View.ld_unit_zero (S := S1x512) zero_offsets, View.ld_unit_zero (S := S256x64) zero_offsets,
    View.ld_unit_zero (S := S1x64) zero_offsets, View.ld_unit_zero (S := S64x1) zero_offsets,
    View.ld_unit_zero (S := S1x1) zero_offsets]
  refine funext fun (j : S1000x1.Idx) => ?_
  obtain ⟨p, q, rfl⟩ : ∃ (p : Fin 1000) (q : Fin 1), j = ix2 p q := ⟨j 0, j 1, eq_ix2 j⟩
  obtain rfl : q = 0 := Subsingleton.elim _ _
  have hN : cfg4.N = 100 := N_4
  have ht : t.val < cfg4.N := t.isLt
  have hr : (⟨t.val * 1000 + p.val, by omega⟩ : Fin 100000).val = t.val * 1000 + p.val := rfl
  show k4_pay1 (k4_pay2 (iblk4 V c 0 t) (iblk4 V c 1 t) (iblk4 V c 2 t) (iblk4 V c 3 t) (iblk4 V c 4 t) (iblk4 V c 5 t)
        (iblk4 V c 6 t)) (Scalar.ofBits .f32 0x00000000#32) (iblk4 V c 7 t) (iblk4 V c 8 t) (ix2 p 0)
      = Cert.Gcn.headK (V c main_v59) (V c main_v60) (V c main_v63) (V c main_v61) (V c main_v65) (V c main_arg14)
          (V c main_v66) (V c main_arg16) (V c main_v67) (((cfg4.win 9).blk t).view.emb (ix2 p (0 : Fin 1) : S1000x1.Idx))
  rw [out_block_emb t p _ hr]
  refine (head_block _ _ _ _ _ _ _ _ _ (V c main_v59) p _ (fun k => rows_block_apply V c t p k _ hr)).trans ?_
  rw [block1_eq V c t, block2_eq V c t, block3_eq V c t, block4_eq V c t, block5_eq V c t, block6_eq V c t,
    block7_eq V c t, block8_eq V c t]

/-- An index of the output array is in point `t`'s block iff each coordinate is in the block's range on its axis. -/
theorem mem_out_block (t : Fin cfg4.N) (i : S100000x1.Idx) :
    i ∈ ((cfg4.win 9).blk t).view.set ↔ ∀ a : Fin 2, win4_9.index t a * S1000x1.size a ≤ (i a).val
      ∧ (i a).val < win4_9.index t a * S1000x1.size a + S1000x1.size a := by
  show i ∈ ((View.whole main_v68).slice (win4_9.rect t)).set ↔ _
  rw [View.set_slice_whole, Rect.mem_set_unit]
  exact Iff.rfl

/-- Every row of the output array is in some point's block: row `r` in point `r / 1000`'s. -/
theorem out_covered (i : S100000x1.Idx) :
    ∃ t : Fin cfg4.N, (cfg4.win 9).flush t = true ∧ i ∈ ((cfg4.win 9).blk t).view.set := by
  have hN : cfg4.N = 100 := N_4
  have hi0 : (i 0).val < 100000 := (i 0).isLt
  have hi1 : (i 1).val < 1 := (i 1).isLt
  obtain ⟨-, -, e0, e1⟩ := moving_indices ⟨(i 0).val / 1000, by omega⟩
  refine ⟨⟨(i 0).val / 1000, by omega⟩, flush4_9 _, ?_⟩
  rw [mem_out_block]
  intro a
  match a with
  | ⟨0, _⟩ =>
    show win4_9.index ⟨(i 0).val / 1000, _⟩ (0 : Fin 2) * 1000 ≤ (i 0).val
      ∧ (i 0).val < win4_9.index ⟨(i 0).val / 1000, _⟩ (0 : Fin 2) * 1000 + 1000
    rw [e0]
    show (i 0).val / 1000 * 1000 ≤ (i 0).val ∧ (i 0).val < (i 0).val / 1000 * 1000 + 1000
    omega
  | ⟨1, _⟩ =>
    show win4_9.index ⟨(i 0).val / 1000, _⟩ (1 : Fin 2) * 1 ≤ (i 1).val
      ∧ (i 1).val < win4_9.index ⟨(i 0).val / 1000, _⟩ (1 : Fin 2) * 1 + 1
    rw [e1]
    omega

/-- THE OUTPUT ARRAY after the last point is the head array of the arrays as the region finds them. -/
theorem region4_final (c : Dev nD) : (dat4 (F := Ideal) V c).arrAt 9 cfg4.N
    = Cert.Gcn.headK (V c main_v59) (V c main_v60) (V c main_v63) (V c main_v61) (V c main_v65) (V c main_arg14)
        (V c main_v66) (V c main_arg16) (V c main_v67) :=
  (dat4 V c).arrAt_eq_of_cover 9 _ (fun t _ => flushed_head V c t) out_covered

end Cert.Gcn.KernelSide

end
-- ==== Proof.Chain.lean ====
/-
  The idealized kernel program's result as a function of its arguments.

  The program is nine segments: host operations that build the edge lists with self-loops and each edge's normalisation;
  a dense product `x · W₁` computed in blocks of 1000 rows; host operations that aggregate its rows over the edges; the
  bias and rectifier in blocks of 1000 rows; the second layer's dense product, aggregation, bias and rectifier in the
  same way; host operations that transpose the two LSTM weight matrices and add the two bias vectors of each direction;
  and the fused head in blocks of 1000 rows. Each segment's output is read as a function of the contents it found, and a
  buffer that a segment does not write keeps its contents; composing them gives the result buffer as the head of the
  second layer's output.
-/
import proofs.«169956_j53901839565300_1_alg».proof.Proof.Gen.KernelIdeal.Frame
import proofs.«169956_j53901839565300_1_alg».proof.Proof.Gen.ReferenceIdeal.Read
import proofs.«169956_j53901839565300_1_alg».proof.Proof.Spec
import proofs.«169956_j53901839565300_1_alg».proof.Proof.RefAgg
import proofs.«169956_j53901839565300_1_alg».proof.Proof.Bridge
import proofs.«169956_j53901839565300_1_alg».proof.Proof.RegionsDense
import proofs.«169956_j53901839565300_1_alg».proof.Proof.RegionHead
import Idealize.ShloMosaic.Lib.StableHlo.Run

set_option maxRecDepth 16384

noncomputable section

namespace Cert.Gcn.KernelSide

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Buffers that pass through segments unchanged -/

/-- No operation of the stretch `ops` writes the buffer `b`. -/
abbrev Keeps (ops : List (HloOp τ sig (Elt Ideal))) (b : Ref sig .tc) : Prop :=
  ∀ op ∈ ops, Proc.devRef (τ := τ) .tc b ∉ op.writes

/-- Decides `Keeps` for a printed stretch: each operation writes its one result buffer, which is another one. -/
macro "keeps" : tactic => `(tactic| (
  refine List.forall_iff_forall_mem.mp ?_
  simp only [hostOps0, hostOps1, hostOps3, hostOps4, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Carry

variable (b : Ref sig .tc) (c : Dev nD)

/-- Through the first stretch. -/
theorem to1 (k0 : Keeps hostOps0 b) : W1 m ρ c (Proc.devRef .tc b) = m ((c : Thread nD τ).loc b) :=
  StableHlo.after_of_forall_not_mem _ _ k0

/-- Through the first dense product, for a buffer that is none of its arrays. -/
theorem to2 (k0 : Keeps hostOps0 b) (h0 : ∀ w, Pipeline.arrRef spec0 w ≠ b) :
    W2 m ρ c (Proc.devRef .tc b) = m ((c : Thread nD τ).loc b) :=
  (W2_of_ne m ρ c b h0).trans (to1 m ρ b c k0)

/-- Through the first layer. -/
theorem to4 (k0 : Keeps hostOps0 b) (h0 : ∀ w, Pipeline.arrRef spec0 w ≠ b) (k1 : Keeps hostOps1 b)
    (h1 : ∀ w, Pipeline.arrRef spec1 w ≠ b) : W4 m ρ c (Proc.devRef .tc b) = m ((c : Thread nD τ).loc b) :=
  (W4_of_ne m ρ c b h1).trans ((StableHlo.after_of_forall_not_mem _ _ k1).trans (to2 m ρ b c k0 h0))

/-- Through the second dense product as well. -/
theorem to5 (k0 : Keeps hostOps0 b) (h0 : ∀ w, Pipeline.arrRef spec0 w ≠ b) (k1 : Keeps hostOps1 b)
    (h1 : ∀ w, Pipeline.arrRef spec1 w ≠ b) (h2 : ∀ w, Pipeline.arrRef spec2 w ≠ b) :
    W5 m ρ c (Proc.devRef .tc b) = m ((c : Thread nD τ).loc b) :=
  (W5_of_ne m ρ c b h2).trans (to4 m ρ b c k0 h0 k1 h1)

/-- Through both layers. -/
theorem to7 (k0 : Keeps hostOps0 b) (h0 : ∀ w, Pipeline.arrRef spec0 w ≠ b) (k1 : Keeps hostOps1 b)
    (h1 : ∀ w, Pipeline.arrRef spec1 w ≠ b) (h2 : ∀ w, Pipeline.arrRef spec2 w ≠ b) (k3 : Keeps hostOps3 b)
    (h3 : ∀ w, Pipeline.arrRef spec3 w ≠ b) : W7 m ρ c (Proc.devRef .tc b) = m ((c : Thread nD τ).loc b) :=
  (W7_of_ne m ρ c b h3).trans ((StableHlo.after_of_forall_not_mem _ _ k3).trans (to5 m ρ b c k0 h0 k1 h1 h2))

/-- From the second layer's aggregation back to the first stretch's output, for a buffer the first stretch wrote. -/
theorem from5to1 (h0 : ∀ w, Pipeline.arrRef spec0 w ≠ b) (k1 : Keeps hostOps1 b)
    (h1 : ∀ w, Pipeline.arrRef spec1 w ≠ b) (h2 : ∀ w, Pipeline.arrRef spec2 w ≠ b) :
    W5 m ρ c (Proc.devRef .tc b) = W1 m ρ c (Proc.devRef .tc b) :=
  (W5_of_ne m ρ c b h2).trans ((W4_of_ne m ρ c b h1).trans ((StableHlo.after_of_forall_not_mem _ _ k1).trans (W2_of_ne m ρ c b h0)))

end Carry

/-! ## The first stretch: the edge lists with self-loops, and each edge's normalisation -/

/-- The source list: the edge list's first row followed by every node once. -/
theorem W1_v5 (c : Dev nD) : W1 m ρ c (Proc.devRef .tc main_v5) = Cert.ReferenceIdeal.Read.val_main_v6 (F := Ideal) (m ((c : Thread nD τ).loc main_arg1)) := by
  show StableHlo.after hostOps0 (W0 m ρ c) (Proc.devRef .tc main_v5) = _
  after_results
  rfl

/-- The destination list: the edge list's second row followed by every node once. -/
theorem W1_v6 (c : Dev nD) : W1 m ρ c (Proc.devRef .tc main_v6) = Cert.ReferenceIdeal.Read.val_main_v7 (F := Ideal) (m ((c : Thread nD τ).loc main_arg1)) := by
  show StableHlo.after hostOps0 (W0 m ρ c) (Proc.devRef .tc main_v6) = _
  after_results
  rfl

/-- Each edge's normalisation, as a column: the product of the inverse square-root degrees of its two ends. -/
theorem W1_v29 (c : Dev nD) : W1 m ρ c (Proc.devRef .tc main_v29) = Cert.ReferenceIdeal.Read.val_main_v37 (F := Ideal) (m ((c : Thread nD τ).loc main_arg1)) := by
  show StableHlo.after hostOps0 (W0 m ρ c) (Proc.devRef .tc main_v29) = _
  after_results_simp
  rfl

/-! ## The first layer -/

/-- The first dense product. -/
theorem v30_val (c : Dev nD) :
    W2 m ρ c (Proc.devRef .tc main_v30) = Cert.Gcn.lin (m ((c : Thread nD τ).loc main_arg0)) (m ((c : Thread nD τ).loc main_arg2)) :=
  (W2_arr m ρ c 2).trans ((region0_final (V1 m ρ) c).trans
    (congrArg₂ Cert.Gcn.lin (to1 m ρ main_arg0 c (by keeps)) (to1 m ρ main_arg2 c (by keeps))))

/-- Its rows aggregated over the edges. -/
theorem v42_val (c : Dev nD) :
    W3 m ρ c (Proc.devRef .tc main_v42)
      = RefSide.agg1 (F := Ideal) (m ((c : Thread nD τ).loc main_arg1)) (Cert.Gcn.lin (m ((c : Thread nD τ).loc main_arg0)) (m ((c : Thread nD τ).loc main_arg2))) := by
  show StableHlo.after hostOps1 (W2 m ρ c) (Proc.devRef .tc main_v42) = _
  after_results
  rw [(W2_of_ne m ρ c main_v5 (by decide)).trans (W1_v5 m ρ c), (W2_of_ne m ρ c main_v6 (by decide)).trans (W1_v6 m ρ c),
    (W2_of_ne m ρ c main_v29 (by decide)).trans (W1_v29 m ρ c), v30_val m ρ c]
  rfl

/-- The first bias as a row. -/
theorem v43_val (c : Dev nD) :
    W3 m ρ c (Proc.devRef .tc main_v43) = shapeCast S1x128 (m ((c : Thread nD τ).loc main_arg3)) shapeCasts_S128_S1x128 := by
  show StableHlo.after hostOps1 (W2 m ρ c) (Proc.devRef .tc main_v43) = _
  after_results
  rw [to2 m ρ main_arg3 c (by keeps) (by decide)]
  rfl

/-- The first layer's output. -/
theorem v44_val (c : Dev nD) :
    W4 m ρ c (Proc.devRef .tc main_v44)
      = Cert.Gcn.biasReluR (RefSide.agg1 (F := Ideal) (m ((c : Thread nD τ).loc main_arg1)) (Cert.Gcn.lin (m ((c : Thread nD τ).loc main_arg0)) (m ((c : Thread nD τ).loc main_arg2))))
          (m ((c : Thread nD τ).loc main_arg3)) :=
  (W4_arr m ρ c 2).trans ((region1_final (V3 m ρ) c).trans
    ((congrArg₂ Cert.Gcn.biasRelu (v42_val m ρ c) (v43_val m ρ c)).trans (Cert.Gcn.biasRelu_reshape _ _ _)))

/-! ## The second layer -/

/-- The second dense product. -/
theorem v45_val (c : Dev nD) :
    W5 m ρ c (Proc.devRef .tc main_v45)
      = Cert.Gcn.lin (Cert.Gcn.biasReluR (RefSide.agg1 (F := Ideal) (m ((c : Thread nD τ).loc main_arg1)) (Cert.Gcn.lin (m ((c : Thread nD τ).loc main_arg0)) (m ((c : Thread nD τ).loc main_arg2))))
          (m ((c : Thread nD τ).loc main_arg3))) (m ((c : Thread nD τ).loc main_arg4)) :=
  (W5_arr m ρ c 2).trans ((region2_final (V4 m ρ) c).trans
    (congrArg₂ Cert.Gcn.lin (v44_val m ρ c) (to4 m ρ main_arg4 c (by keeps) (by decide) (by keeps) (by decide))))

/-- The edge lists and the normalisation are still the first stretch's when the second layer aggregates. -/
theorem W5_v5 (c : Dev nD) : W5 m ρ c (Proc.devRef .tc main_v5) = Cert.ReferenceIdeal.Read.val_main_v6 (F := Ideal) (m ((c : Thread nD τ).loc main_arg1)) :=
  (from5to1 m ρ main_v5 c (by decide) (by keeps) (by decide) (by decide)).trans (W1_v5 m ρ c)

theorem W5_v6 (c : Dev nD) : W5 m ρ c (Proc.devRef .tc main_v6) = Cert.ReferenceIdeal.Read.val_main_v7 (F := Ideal) (m ((c : Thread nD τ).loc main_arg1)) :=
  (from5to1 m ρ main_v6 c (by decide) (by keeps) (by decide) (by decide)).trans (W1_v6 m ρ c)

theorem W5_v29 (c : Dev nD) : W5 m ρ c (Proc.devRef .tc main_v29) = Cert.ReferenceIdeal.Read.val_main_v37 (F := Ideal) (m ((c : Thread nD τ).loc main_arg1)) :=
  (from5to1 m ρ main_v29 c (by decide) (by keeps) (by decide) (by decide)).trans (W1_v29 m ρ c)

set_option maxHeartbeats 1000000 in
/-- Its rows aggregated over the edges. -/
theorem v57_val (c : Dev nD) :
    W6 m ρ c (Proc.devRef .tc main_v57)
      = RefSide.agg2 (F := Ideal) (m ((c : Thread nD τ).loc main_arg1))
          (Cert.Gcn.lin (Cert.Gcn.biasReluR (RefSide.agg1 (F := Ideal) (m ((c : Thread nD τ).loc main_arg1)) (Cert.Gcn.lin (m ((c : Thread nD τ).loc main_arg0)) (m ((c : Thread nD τ).loc main_arg2))))
            (m ((c : Thread nD τ).loc main_arg3))) (m ((c : Thread nD τ).loc main_arg4))) := by
  show StableHlo.after hostOps3 (W5 m ρ c) (Proc.devRef .tc main_v57) = _
  after_results
  rw [W5_v5 m ρ c, W5_v6 m ρ c, W5_v29 m ρ c, v45_val m ρ c]
  rfl

/-- The second bias as a row. -/
theorem v58_val (c : Dev nD) :
    W6 m ρ c (Proc.devRef .tc main_v58) = shapeCast S1x128 (m ((c : Thread nD τ).loc main_arg5)) shapeCasts_S128_S1x128 := by
  show StableHlo.after hostOps3 (W5 m ρ c) (Proc.devRef .tc main_v58) = _
  after_results
  rw [to5 m ρ main_arg5 c (by keeps) (by decide) (by keeps) (by decide) (by decide)]
  rfl

/-- The second layer's output, as a function of the arguments. -/
abbrev hidden2 (c : Dev nD) : FVec Ideal S100000x128 .f32 :=
  Cert.Gcn.biasReluR (RefSide.agg2 (F := Ideal) (m ((c : Thread nD τ).loc main_arg1))
      (Cert.Gcn.lin (Cert.Gcn.biasReluR (RefSide.agg1 (F := Ideal) (m ((c : Thread nD τ).loc main_arg1)) (Cert.Gcn.lin (m ((c : Thread nD τ).loc main_arg0)) (m ((c : Thread nD τ).loc main_arg2))))
        (m ((c : Thread nD τ).loc main_arg3))) (m ((c : Thread nD τ).loc main_arg4))))
    (m ((c : Thread nD τ).loc main_arg5))

theorem v59_val (c : Dev nD) : W7 m ρ c (Proc.devRef .tc main_v59) = hidden2 m c :=
  (W7_arr m ρ c 2).trans ((region3_final (V6 m ρ) c).trans
    ((congrArg₂ Cert.Gcn.biasRelu (v57_val m ρ c) (v58_val m ρ c)).trans (Cert.Gcn.biasRelu_reshape _ _ _)))

/-! ## The last stretch and the head -/

/-- A weight matrix transposed by the last stretch. -/
theorem v60_val (c : Dev nD) :
    W8 m ρ c (Proc.devRef .tc main_v60) = transpose S128x512 [1, 0] (m ((c : Thread nD τ).loc main_arg6)) transposes_S512x128_S128x512_1_0 := by
  show StableHlo.after hostOps4 (W7 m ρ c) (Proc.devRef .tc main_v60) = _
  after_results
  rw [to7 m ρ main_arg6 c (by keeps) (by decide) (by keeps) (by decide) (by decide) (by keeps) (by decide)]

theorem v61_val (c : Dev nD) :
    W8 m ρ c (Proc.devRef .tc main_v61) = transpose S128x512 [1, 0] (m ((c : Thread nD τ).loc main_arg10)) transposes_S512x128_S128x512_1_0 := by
  show StableHlo.after hostOps4 (W7 m ρ c) (Proc.devRef .tc main_v61) = _
  after_results
  rw [to7 m ρ main_arg10 c (by keeps) (by decide) (by keeps) (by decide) (by decide) (by keeps) (by decide)]

/-- A direction's two bias vectors added and made a row. -/
theorem v63_val (c : Dev nD) :
    W8 m ρ c (Proc.devRef .tc main_v63) = shapeCast S1x512 (addf (F := Ideal) (s := S512) (φ := .f32) (m ((c : Thread nD τ).loc main_arg8)) (m ((c : Thread nD τ).loc main_arg9))) shapeCasts_S512_S1x512 := by
  show StableHlo.after hostOps4 (W7 m ρ c) (Proc.devRef .tc main_v63) = _
  after_results
  rw [to7 m ρ main_arg8 c (by keeps) (by decide) (by keeps) (by decide) (by decide) (by keeps) (by decide),
    to7 m ρ main_arg9 c (by keeps) (by decide) (by keeps) (by decide) (by decide) (by keeps) (by decide)]
  rfl

theorem v65_val (c : Dev nD) :
    W8 m ρ c (Proc.devRef .tc main_v65) = shapeCast S1x512 (addf (F := Ideal) (s := S512) (φ := .f32) (m ((c : Thread nD τ).loc main_arg12)) (m ((c : Thread nD τ).loc main_arg13))) shapeCasts_S512_S1x512 := by
  show StableHlo.after hostOps4 (W7 m ρ c) (Proc.devRef .tc main_v65) = _
  after_results
  rw [to7 m ρ main_arg12 c (by keeps) (by decide) (by keeps) (by decide) (by decide) (by keeps) (by decide),
    to7 m ρ main_arg13 c (by keeps) (by decide) (by keeps) (by decide) (by decide) (by keeps) (by decide)]
  rfl

/-- The perceptron's two bias vectors made rows. -/
theorem v66_val (c : Dev nD) :
    W8 m ρ c (Proc.devRef .tc main_v66) = shapeCast S1x64 (m ((c : Thread nD τ).loc main_arg15)) shapeCasts_S64_S1x64 := by
  show StableHlo.after hostOps4 (W7 m ρ c) (Proc.devRef .tc main_v66) = _
  after_results
  rw [to7 m ρ main_arg15 c (by keeps) (by decide) (by keeps) (by decide) (by decide) (by keeps) (by decide)]
  rfl

theorem v67_val (c : Dev nD) :
    W8 m ρ c (Proc.devRef .tc main_v67) = shapeCast S1x1 (m ((c : Thread nD τ).loc main_arg17)) shapeCasts_S1_S1x1 := by
  show StableHlo.after hostOps4 (W7 m ρ c) (Proc.devRef .tc main_v67) = _
  after_results
  rw [to7 m ρ main_arg17 c (by keeps) (by decide) (by keeps) (by decide) (by decide) (by keeps) (by decide)]
  rfl

/-- The head of equal arguments is equal: the nine arrays it reads, one equation each. -/
theorem headK_congr {h h' : FVec Ideal S100000x128 .f32} {wf wf' : FVec Ideal S128x512 .f32} {bf bf' : FVec Ideal S1x512 .f32}
    {wb wb' : FVec Ideal S128x512 .f32} {bb bb' : FVec Ideal S1x512 .f32} {w1 w1' : FVec Ideal S256x64 .f32}
    {b1 b1' : FVec Ideal S1x64 .f32} {w2 w2' : FVec Ideal S64x1 .f32} {b2 b2' : FVec Ideal S1x1 .f32}
    (e0 : h = h') (e1 : wf = wf') (e2 : bf = bf') (e3 : wb = wb') (e4 : bb = bb') (e5 : w1 = w1') (e6 : b1 = b1')
    (e7 : w2 = w2') (e8 : b2 = b2') :
    Cert.Gcn.headK h wf bf wb bb w1 b1 w2 b2 = Cert.Gcn.headK h' wf' bf' wb' bb' w1' b1' w2' b2' := by
  subst e0 e1 e2 e3 e4 e5 e6 e7 e8; rfl

/-- THE RESULT: the head of the second layer's output. -/
theorem result_val (c : Dev nD) :
    W9 m ρ c (Proc.devRef .tc main_v68)
      = Cert.Gcn.headR (hidden2 m c) (m ((c : Thread nD τ).loc main_arg6)) (m ((c : Thread nD τ).loc main_arg8)) (m ((c : Thread nD τ).loc main_arg9)) (m ((c : Thread nD τ).loc main_arg10)) (m ((c : Thread nD τ).loc main_arg12)) (m ((c : Thread nD τ).loc main_arg13))
          (m ((c : Thread nD τ).loc main_arg14)) (m ((c : Thread nD τ).loc main_arg15)) (m ((c : Thread nD τ).loc main_arg16)) (m ((c : Thread nD τ).loc main_arg17)) := by
  refine (W9_arr m ρ c 9).trans ((region4_final (V8 m ρ) c).trans ?_)
  have e0 : V8 m ρ c main_v59 = hidden2 m c :=
    (StableHlo.after_of_forall_not_mem _ _ (by keeps : Keeps hostOps4 main_v59)).trans (v59_val m ρ c)
  have e5 : V8 m ρ c main_arg14 = (m ((c : Thread nD τ).loc main_arg14)) :=
    (StableHlo.after_of_forall_not_mem _ _ (by keeps : Keeps hostOps4 main_arg14)).trans
      (to7 m ρ main_arg14 c (by keeps) (by decide) (by keeps) (by decide) (by decide) (by keeps) (by decide))
  have e7 : V8 m ρ c main_arg16 = (m ((c : Thread nD τ).loc main_arg16)) :=
    (StableHlo.after_of_forall_not_mem _ _ (by keeps : Keeps hostOps4 main_arg16)).trans
      (to7 m ρ main_arg16 c (by keeps) (by decide) (by keeps) (by decide) (by decide) (by keeps) (by decide))
  exact (headK_congr e0 (v60_val m ρ c) (v63_val m ρ c) (v61_val m ρ c) (v65_val m ρ c) e5 (v66_val m ρ c) e7
    (v67_val m ρ c)).trans (Cert.Gcn.headK_eq_headR _ _ _ _ _ _ _ _ _ _ _ _ _ _ _)

end Cert.Gcn.KernelSide

end
-- ==== Proof.RefLayers.lean ====
/-
  The reference's two graph-convolution layers read back as the specification's functions: the dense product with the
  weight matrix is the row-by-column sum, and the bias followed by the rectifier is the maximum with zero of the sum with
  the bias vector's entry of the column. The normalised neighbour sum between them stays an opaque term.
-/
import proofs.«169956_j53901839565300_1_alg».proof.Proof.Gen.ReferenceIdeal.Read
import proofs.«169956_j53901839565300_1_alg».proof.Proof.Spec
import Idealize.ShloMosaic.Lib.Pipeline.Value
import Idealize.ShloMosaic.Lib.ValueLayout

noncomputable section

open scoped BigOperators

namespace Cert.Gcn.RefSide

open Cert.ReferenceIdeal Cert.ReferenceIdeal.Read Idealize.ShloMosaic Idealize.ShloMosaic.ValueIdx

/-- The left operand's index of layer 1's product at row `r`, summand `k`. -/
theorem lidx_v4 (r : Fin 100000) (c k : Fin 128) : lidx_main_v4 (ix2 r c) k = ix2 r k :=
  funext fun a => Fin.ext (by match a with | ⟨0, _⟩ => rfl | ⟨1, _⟩ => rfl)

/-- The right operand's index of layer 1's product at column `c`, summand `k`. -/
theorem ridx_v4 (r : Fin 100000) (c k : Fin 128) : ridx_main_v4 (ix2 r c) k = ix2 k c :=
  funext fun a => Fin.ext (by match a with | ⟨0, _⟩ => rfl | ⟨1, _⟩ => rfl)

/-- The same two indices for layer 2's product. -/
theorem lidx_v47 (r : Fin 100000) (c k : Fin 128) : lidx_main_v47 (ix2 r c) k = ix2 r k :=
  funext fun a => Fin.ext (by match a with | ⟨0, _⟩ => rfl | ⟨1, _⟩ => rfl)

theorem ridx_v47 (r : Fin 100000) (c k : Fin 128) : ridx_main_v47 (ix2 r c) k = ix2 k c :=
  funext fun a => Fin.ext (by match a with | ⟨0, _⟩ => rfl | ⟨1, _⟩ => rfl)

/-- A bias vector broadcast first to a row and then to every row is read at the column. -/
theorem bidx_v44 (r : Fin 100000) (c : Fin 128) : idx_main_v43 (idx_main_v44 (ix2 r c)) = ix1 c :=
  funext fun a => Fin.ext (by match a with | ⟨0, _⟩ => rfl)

theorem bidx_v87 (r : Fin 100000) (c : Fin 128) : idx_main_v86 (idx_main_v87 (ix2 r c)) = ix1 c :=
  funext fun a => Fin.ext (by match a with | ⟨0, _⟩ => rfl)

/-- Layer 1's dense product is `x · W₁`. -/
theorem ref_lin1 (x0 : (⟨S100000x128, .f32⟩ : BufTy).Contents (Elt Ideal)) (x2 : (⟨S128x128, .f32⟩ : BufTy).Contents (Elt Ideal)) :
    val_main_v4 (F := Ideal) x0 x2 = Cert.Gcn.lin x0 x2 := by
  funext i
  obtain ⟨r, c, rfl⟩ : ∃ (r : Fin 100000) (c : Fin 128), i = ix2 r c := ⟨i 0, i 1, eq_ix2 i⟩
  rw [val_main_v4_apply]
  simp only [lidx_v4, ridx_v4]
  rfl

/-- Layer 1's bias and rectifier: `max (a + b₁, 0)` over the neighbour sum `a`. -/
theorem ref_relu1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v46 (F := Ideal) x0 x1 x2 x3 = Cert.Gcn.biasReluR (val_main_v42 (F := Ideal) x0 x1 x2) x3 := by
  funext i
  obtain ⟨r, c, rfl⟩ : ∃ (r : Fin 100000) (c : Fin 128), i = ix2 r c := ⟨i 0, i 1, eq_ix2 i⟩
  rw [val_main_v46_apply, val_main_v45_apply, val_main_v44_apply, val_main_v43_apply, val_main_call0_v0_apply,
    val_main_call0_cst_apply, bidx_v44]
  generalize val_main_v42 (F := Ideal) x0 x1 x2 = a
  simp only [Ideal.maximumf_def, Ideal.addf_def, Ideal.ofBits_def]
  rfl

/-- Layer 2's dense product is `h₁ · W₂` over layer 1's output `h₁`. -/
theorem ref_lin2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v47 (F := Ideal) x0 x1 x2 x3 x4 = Cert.Gcn.lin (val_main_v46 (F := Ideal) x0 x1 x2 x3) x4 := by
  funext i
  obtain ⟨r, c, rfl⟩ : ∃ (r : Fin 100000) (c : Fin 128), i = ix2 r c := ⟨i 0, i 1, eq_ix2 i⟩
  rw [val_main_v47_apply]
  generalize val_main_v46 (F := Ideal) x0 x1 x2 x3 = h
  simp only [lidx_v47, ridx_v47]
  rfl

/-- Layer 2's bias and rectifier. -/
theorem ref_relu2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v89 (F := Ideal) x0 x1 x2 x3 x4 x5 = Cert.Gcn.biasReluR (val_main_v85 (F := Ideal) x0 x1 x2 x3 x4) x5 := by
  funext i
  obtain ⟨r, c, rfl⟩ : ∃ (r : Fin 100000) (c : Fin 128), i = ix2 r c := ⟨i 0, i 1, eq_ix2 i⟩
  rw [val_main_v89_apply, val_main_v88_apply, val_main_v87_apply, val_main_v86_apply, val_main_call1_v0_apply,
    val_main_call1_cst_apply, bidx_v87]
  generalize val_main_v85 (F := Ideal) x0 x1 x2 x3 x4 = a
  simp only [Ideal.maximumf_def, Ideal.addf_def, Ideal.ofBits_def]
  rfl

end Cert.Gcn.RefSide

end
-- ==== Proof.RefGates.lean ====
/-
  The head's recurrent layer in the reference, read at one row: each direction's gate pre-activations are the product of
  the features with the transposed input weights plus the two bias vectors, and the cell's output from a zero state is
  `σ(o) · tanh (σ(i) · tanh ĉ)` over the three column ranges of the pre-activations.
-/
import proofs.«169956_j53901839565300_1_alg».proof.Proof.Gen.ReferenceIdeal.Read
import proofs.«169956_j53901839565300_1_alg».proof.Proof.Spec
import Idealize.ShloMosaic.Lib.Pipeline.Value
import Idealize.ShloMosaic.Lib.ValueLayout

noncomputable section

open scoped BigOperators

namespace Cert.Gcn.RefSide

open Cert.ReferenceIdeal Cert.ReferenceIdeal.Read Idealize.ShloMosaic Idealize.ShloMosaic.ValueIdx

/-- The word of 1.0 denotes the extended real one. -/
theorem one_word : Ideal.ofBits .f32 0x3F800000#32 = 1 := by
  simp [Ideal.ofBits, Ideal.ieee, -EReal.coe_mul]; norm_num

/-! ## The forward direction -/

/-- The product's left index: row `r` of the features, summand `k`. -/
theorem lidx_gateF (r : Fin 100000) (c : Fin 512) (k : Fin 128) : lidx_main_v91 (ix2 r c) k = ix2 r k :=
  funext fun a => Fin.ext (by match a with | ⟨0, _⟩ => rfl | ⟨1, _⟩ => rfl)

/-- The product's right index through the transposition: row `c`, column `k` of the weights as given. -/
theorem ridx_gateF (r : Fin 100000) (c : Fin 512) (k : Fin 128) :
    idx_main_v90 (ridx_main_v91 (ix2 r c) k) = ix2 c k :=
  funext fun a => Fin.ext (by match a with | ⟨0, _⟩ => rfl | ⟨1, _⟩ => rfl)

/-- The two bias vectors, broadcast to a row and then to every row, are read at the column. -/
theorem bidx_ihF (r : Fin 100000) (c : Fin 512) : idx_main_v92 (idx_main_v93 (ix2 r c)) = ix1 c :=
  funext fun a => Fin.ext (by match a with | ⟨0, _⟩ => rfl)

theorem bidx_hhF (r : Fin 100000) (c : Fin 512) : idx_main_v95 (idx_main_v96 (ix2 r c)) = ix1 c :=
  funext fun a => Fin.ext (by match a with | ⟨0, _⟩ => rfl)

/-- The forward gates' pre-activation at row `r`, column `c`: `(h · Wᵀ + b_ih) + b_hh`. -/
theorem gateF_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S512x128, .f32⟩ : BufTy).Contents (Elt Ideal)) (x8 : (⟨S512, .f32⟩ : BufTy).Contents (Elt Ideal)) (x9 : (⟨S512, .f32⟩ : BufTy).Contents (Elt Ideal))
    (r : Fin 100000) (c : Fin 512) :
    val_main_v97 (F := Ideal) x0 x1 x2 x3 x4 x5 x6 x8 x9 (ix2 r c)
      = Cert.Gcn.gateRefAt (val_main_v89 (F := Ideal) x0 x1 x2 x3 x4 x5) x6 x8 x9 r c := by
  rw [val_main_v97_apply, val_main_v96_apply, val_main_v95_apply, val_main_v94_apply, val_main_v93_apply, val_main_v92_apply, val_main_v91_apply,
    bidx_ihF, bidx_hhF]
  generalize val_main_v89 (F := Ideal) x0 x1 x2 x3 x4 x5 = h
  have hs : ∀ k : Fin 128, h (lidx_main_v91 (ix2 r c) k) * val_main_v90 (F := Ideal) x6 (ridx_main_v91 (ix2 r c) k)
      = h (ix2 r k) * x6 (ix2 c k) := fun k => by
    rw [val_main_v90_apply, lidx_gateF, ridx_gateF]
  rw [Finset.sum_congr rfl fun k _ => hs k]
  rfl

/-- The three column slices of the pre-activations: the input gate, the cell candidate, the output gate. -/
theorem sidx_iF (r : Fin 100000) (l : Fin 128) : idx_main_v98 (ix2 r l) = ix2 r (⟨l.val, by omega⟩ : Fin 512) :=
  funext fun a => Fin.ext (by match a with | ⟨0, _⟩ => rfl | ⟨1, _⟩ => rfl)

theorem sidx_cF (r : Fin 100000) (l : Fin 128) :
    idx_main_v105 (ix2 r l) = ix2 r (⟨l.val + 256, by omega⟩ : Fin 512) :=
  funext fun a => Fin.ext (by match a with | ⟨0, _⟩ => rfl | ⟨1, _⟩ => exact Nat.add_comm 256 l.val)

theorem sidx_oF (r : Fin 100000) (l : Fin 128) :
    idx_main_v107 (ix2 r l) = ix2 r (⟨l.val + 384, by omega⟩ : Fin 512) :=
  funext fun a => Fin.ext (by match a with | ⟨0, _⟩ => rfl | ⟨1, _⟩ => exact Nat.add_comm 384 l.val)

/-- The forward cell's output at row `r`, hidden unit `l`, from the row's pre-activations `g`: the sigmoid spelt as
    negation, exponential, one plus, and the quotient of one by it is the logistic function. -/
theorem cellF_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S512x128, .f32⟩ : BufTy).Contents (Elt Ideal)) (x8 : (⟨S512, .f32⟩ : BufTy).Contents (Elt Ideal)) (x9 : (⟨S512, .f32⟩ : BufTy).Contents (Elt Ideal))
    (r : Fin 100000) (l : Fin 128) (g : Fin 512 → EReal)
    (hg : ∀ c : Fin 512, val_main_v97 (F := Ideal) x0 x1 x2 x3 x4 x5 x6 x8 x9 (ix2 r c) = g c) :
    val_main_v116 (F := Ideal) x0 x1 x2 x3 x4 x5 x6 x8 x9 (ix2 r l) = Cert.Gcn.cellAt g l := by
  rw [val_main_v116_apply, val_main_v115_apply, val_main_v114_apply, val_main_v113_apply, val_main_v112_apply, val_main_cst_21_apply, val_main_v111_apply, val_main_v110_apply, val_main_cst_20_apply, val_main_v109_apply, val_main_v108_apply, val_main_v107_apply,
    val_main_v106_apply, val_main_v105_apply, val_main_v104_apply, val_main_v103_apply, val_main_cst_19_apply, val_main_v102_apply, val_main_v101_apply, val_main_cst_18_apply, val_main_v100_apply, val_main_v99_apply, val_main_v98_apply,
    sidx_iF, sidx_cF, sidx_oF, hg, hg, hg]
  simp only [Ideal.mulf_def, Ideal.hostUnary_tanh_def, Ideal.hostUnary_exp_def, Ideal.hostDivf_def, Ideal.hostNegf_def,
    Ideal.negf_def, Ideal.addf_def, Ideal.ofBits_def, one_word]
  rfl

/-! ## The backward direction -/

/-- The product's left index: row `r` of the features, summand `k`. -/
theorem lidx_gateB (r : Fin 100000) (c : Fin 512) (k : Fin 128) : lidx_main_v118 (ix2 r c) k = ix2 r k :=
  funext fun a => Fin.ext (by match a with | ⟨0, _⟩ => rfl | ⟨1, _⟩ => rfl)

/-- The product's right index through the transposition: row `c`, column `k` of the weights as given. -/
theorem ridx_gateB (r : Fin 100000) (c : Fin 512) (k : Fin 128) :
    idx_main_v117 (ridx_main_v118 (ix2 r c) k) = ix2 c k :=
  funext fun a => Fin.ext (by match a with | ⟨0, _⟩ => rfl | ⟨1, _⟩ => rfl)

/-- The two bias vectors, broadcast to a row and then to every row, are read at the column. -/
theorem bidx_ihB (r : Fin 100000) (c : Fin 512) : idx_main_v119 (idx_main_v120 (ix2 r c)) = ix1 c :=
  funext fun a => Fin.ext (by match a with | ⟨0, _⟩ => rfl)

theorem bidx_hhB (r : Fin 100000) (c : Fin 512) : idx_main_v122 (idx_main_v123 (ix2 r c)) = ix1 c :=
  funext fun a => Fin.ext (by match a with | ⟨0, _⟩ => rfl)

/-- The backward gates' pre-activation at row `r`, column `c`: `(h · Wᵀ + b_ih) + b_hh`. -/
theorem gateB_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S512x128, .f32⟩ : BufTy).Contents (Elt Ideal)) (x12 : (⟨S512, .f32⟩ : BufTy).Contents (Elt Ideal)) (x13 : (⟨S512, .f32⟩ : BufTy).Contents (Elt Ideal))
    (r : Fin 100000) (c : Fin 512) :
    val_main_v124 (F := Ideal) x0 x1 x2 x3 x4 x5 x10 x12 x13 (ix2 r c)
      = Cert.Gcn.gateRefAt (val_main_v89 (F := Ideal) x0 x1 x2 x3 x4 x5) x10 x12 x13 r c := by
  rw [val_main_v124_apply, val_main_v123_apply, val_main_v122_apply, val_main_v121_apply, val_main_v120_apply, val_main_v119_apply, val_main_v118_apply,
    bidx_ihB, bidx_hhB]
  generalize val_main_v89 (F := Ideal) x0 x1 x2 x3 x4 x5 = h
  have hs : ∀ k : Fin 128, h (lidx_main_v118 (ix2 r c) k) * val_main_v117 (F := Ideal) x10 (ridx_main_v118 (ix2 r c) k)
      = h (ix2 r k) * x10 (ix2 c k) := fun k => by
    rw [val_main_v117_apply, lidx_gateB, ridx_gateB]
  rw [Finset.sum_congr rfl fun k _ => hs k]
  rfl

/-- The three column slices of the pre-activations: the input gate, the cell candidate, the output gate. -/
theorem sidx_iB (r : Fin 100000) (l : Fin 128) : idx_main_v125 (ix2 r l) = ix2 r (⟨l.val, by omega⟩ : Fin 512) :=
  funext fun a => Fin.ext (by match a with | ⟨0, _⟩ => rfl | ⟨1, _⟩ => rfl)

theorem sidx_cB (r : Fin 100000) (l : Fin 128) :
    idx_main_v132 (ix2 r l) = ix2 r (⟨l.val + 256, by omega⟩ : Fin 512) :=
  funext fun a => Fin.ext (by match a with | ⟨0, _⟩ => rfl | ⟨1, _⟩ => exact Nat.add_comm 256 l.val)

theorem sidx_oB (r : Fin 100000) (l : Fin 128) :
    idx_main_v134 (ix2 r l) = ix2 r (⟨l.val + 384, by omega⟩ : Fin 512) :=
  funext fun a => Fin.ext (by match a with | ⟨0, _⟩ => rfl | ⟨1, _⟩ => exact Nat.add_comm 384 l.val)

/-- The backward cell's output at row `r`, hidden unit `l`, from the row's pre-activations `g`: the sigmoid spelt as
    negation, exponential, one plus, and the quotient of one by it is the logistic function. -/
theorem cellB_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x10 : (⟨S512x128, .f32⟩ : BufTy).Contents (Elt Ideal)) (x12 : (⟨S512, .f32⟩ : BufTy).Contents (Elt Ideal)) (x13 : (⟨S512, .f32⟩ : BufTy).Contents (Elt Ideal))
    (r : Fin 100000) (l : Fin 128) (g : Fin 512 → EReal)
    (hg : ∀ c : Fin 512, val_main_v124 (F := Ideal) x0 x1 x2 x3 x4 x5 x10 x12 x13 (ix2 r c) = g c) :
    val_main_v143 (F := Ideal) x0 x1 x2 x3 x4 x5 x10 x12 x13 (ix2 r l) = Cert.Gcn.cellAt g l := by
  rw [val_main_v143_apply, val_main_v142_apply, val_main_v141_apply, val_main_v140_apply, val_main_v139_apply, val_main_cst_25_apply, val_main_v138_apply, val_main_v137_apply, val_main_cst_24_apply, val_main_v136_apply, val_main_v135_apply, val_main_v134_apply,
    val_main_v133_apply, val_main_v132_apply, val_main_v131_apply, val_main_v130_apply, val_main_cst_23_apply, val_main_v129_apply, val_main_v128_apply, val_main_cst_22_apply, val_main_v127_apply, val_main_v126_apply, val_main_v125_apply,
    sidx_iB, sidx_cB, sidx_oB, hg, hg, hg]
  simp only [Ideal.mulf_def, Ideal.hostUnary_tanh_def, Ideal.hostUnary_exp_def, Ideal.hostDivf_def, Ideal.hostNegf_def,
    Ideal.negf_def, Ideal.addf_def, Ideal.ofBits_def, one_word]
  rfl

end Cert.Gcn.RefSide

end
-- ==== Proof.RefHead.lean ====
/-
  The reference's head read back as the specification's: the two directions' cell outputs joined along the columns, the
  two dense layers of the perceptron with the rectifier between them, and the assembly over layer 2's output.
-/
import proofs.«169956_j53901839565300_1_alg».proof.Proof.Gen.ReferenceIdeal.Read
import proofs.«169956_j53901839565300_1_alg».proof.Proof.Spec
import Idealize.ShloMosaic.Lib.Pipeline.Value
import Idealize.ShloMosaic.Lib.ValueLayout
import proofs.«169956_j53901839565300_1_alg».proof.Proof.RefGates

noncomputable section

open scoped BigOperators

namespace Cert.Gcn.RefSide

open Cert.ReferenceIdeal Cert.ReferenceIdeal.Read Idealize.ShloMosaic Idealize.ShloMosaic.ValueIdx

/-- The two directions side by side, over the row's two pre-activations `gf`, `gb`: a column below 128 is the forward
    cell's, a column from 128 on the backward cell's at the column less 128. -/
theorem bi_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S512x128, .f32⟩ : BufTy).Contents (Elt Ideal)) (x8 : (⟨S512, .f32⟩ : BufTy).Contents (Elt Ideal)) (x9 : (⟨S512, .f32⟩ : BufTy).Contents (Elt Ideal)) (x10 : (⟨S512x128, .f32⟩ : BufTy).Contents (Elt Ideal)) (x12 : (⟨S512, .f32⟩ : BufTy).Contents (Elt Ideal)) (x13 : (⟨S512, .f32⟩ : BufTy).Contents (Elt Ideal))
    (r : Fin 100000) (l : Fin 256) (gf gb : Fin 512 → EReal)
    (hf : ∀ c : Fin 512, val_main_v97 (F := Ideal) x0 x1 x2 x3 x4 x5 x6 x8 x9 (ix2 r c) = gf c)
    (hb : ∀ c : Fin 512, val_main_v124 (F := Ideal) x0 x1 x2 x3 x4 x5 x10 x12 x13 (ix2 r c) = gb c) :
    val_main_v144 (F := Ideal) x0 x1 x2 x3 x4 x5 x6 x8 x9 x10 x12 x13 (ix2 r l) = Cert.Gcn.biOf gf gb l := by
  unfold val_main_v144 Cert.Gcn.biOf
  by_cases hl : l.val < 128
  · rw [dif_pos hl]
    exact (concatenate_pair_apply_left (s₁ := S100000x128) (s₂ := S100000x128) _ _ _ _ (ix2 r l) rfl
      (ix2 r (⟨l.val, hl⟩ : Fin 128)) (fun b => by match b with | ⟨0, _⟩ => rfl | ⟨1, _⟩ => rfl)).trans
      (cellF_at x0 x1 x2 x3 x4 x5 x6 x8 x9 r ⟨l.val, hl⟩ gf hf)
  · rw [dif_neg hl]
    exact (concatenate_pair_apply_right (s₁ := S100000x128) (s₂ := S100000x128) _ _ _ _ (ix2 r l) rfl rfl
      (ix2 r (⟨l.val - 128, by omega⟩ : Fin 128))
      (fun b hb => by match b, hb with | ⟨0, _⟩, _ => rfl | ⟨1, _⟩, hb => exact absurd rfl hb)
      (by show l.val - 128 + 128 = l.val; omega)).trans
      (cellB_at x0 x1 x2 x3 x4 x5 x10 x12 x13 r ⟨l.val - 128, by omega⟩ gb hb)

/-- The first dense layer's indices: row `r` of the cells' outputs and column `j` of the weights, summand `k`; the
    bias at `j`. -/
theorem lidx_fc1 (r : Fin 100000) (j : Fin 64) (k : Fin 256) : lidx_main_v145 (ix2 r j) k = ix2 r k :=
  funext fun a => Fin.ext (by match a with | ⟨0, _⟩ => rfl | ⟨1, _⟩ => rfl)

theorem ridx_fc1 (r : Fin 100000) (j : Fin 64) (k : Fin 256) : ridx_main_v145 (ix2 r j) k = ix2 k j :=
  funext fun a => Fin.ext (by match a with | ⟨0, _⟩ => rfl | ⟨1, _⟩ => rfl)

theorem bidx_fc1 (r : Fin 100000) (j : Fin 64) : idx_main_v146 (idx_main_v147 (ix2 r j)) = ix1 j :=
  funext fun a => Fin.ext (by match a with | ⟨0, _⟩ => rfl)

/-- The perceptron's hidden layer at row `r`, unit `j`. -/
theorem hid_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S512x128, .f32⟩ : BufTy).Contents (Elt Ideal)) (x8 : (⟨S512, .f32⟩ : BufTy).Contents (Elt Ideal)) (x9 : (⟨S512, .f32⟩ : BufTy).Contents (Elt Ideal)) (x10 : (⟨S512x128, .f32⟩ : BufTy).Contents (Elt Ideal)) (x12 : (⟨S512, .f32⟩ : BufTy).Contents (Elt Ideal)) (x13 : (⟨S512, .f32⟩ : BufTy).Contents (Elt Ideal)) (x14 : (⟨S256x64, .f32⟩ : BufTy).Contents (Elt Ideal)) (x15 : (⟨S64, .f32⟩ : BufTy).Contents (Elt Ideal))
    (r : Fin 100000) (j : Fin 64) (gf gb : Fin 512 → EReal)
    (hf : ∀ c : Fin 512, val_main_v97 (F := Ideal) x0 x1 x2 x3 x4 x5 x6 x8 x9 (ix2 r c) = gf c)
    (hb : ∀ c : Fin 512, val_main_v124 (F := Ideal) x0 x1 x2 x3 x4 x5 x10 x12 x13 (ix2 r c) = gb c) :
    val_main_v149 (F := Ideal) x0 x1 x2 x3 x4 x5 x6 x8 x9 x10 x12 x13 x14 x15 (ix2 r j)
      = Cert.Gcn.hidOf gf gb x14 (fun j => x15 (ix1 j)) j := by
  rw [val_main_v149_apply, val_main_v148_apply, val_main_v147_apply, val_main_v146_apply, val_main_call2_v0_apply,
    val_main_call2_cst_apply, val_main_v145_apply, bidx_fc1]
  have hs : ∀ k : Fin 256, val_main_v144 (F := Ideal) x0 x1 x2 x3 x4 x5 x6 x8 x9 x10 x12 x13 (lidx_main_v145 (ix2 r j) k)
        * x14 (ridx_main_v145 (ix2 r j) k) = Cert.Gcn.biOf gf gb k * x14 (ix2 k j) := fun k => by
    rw [lidx_fc1, ridx_fc1, bi_at x0 x1 x2 x3 x4 x5 x6 x8 x9 x10 x12 x13 r k gf gb hf hb]
  rw [Finset.sum_congr rfl fun k _ => hs k]
  rfl

/-- The second dense layer's indices at the one output column. -/
theorem lidx_fc2 (r : Fin 100000) (k : Fin 64) : lidx_main_v150 (ix2 r (0 : Fin 1)) k = ix2 r k :=
  funext fun a => Fin.ext (by match a with | ⟨0, _⟩ => rfl | ⟨1, _⟩ => rfl)

theorem ridx_fc2 (r : Fin 100000) (k : Fin 64) : ridx_main_v150 (ix2 r (0 : Fin 1)) k = ix2 k (0 : Fin 1) :=
  funext fun a => Fin.ext (by match a with | ⟨0, _⟩ => rfl | ⟨1, _⟩ => rfl)

theorem bidx_fc2 (r : Fin 100000) : idx_main_v151 (idx_main_v152 (ix2 r (0 : Fin 1))) = ix1 (0 : Fin 1) :=
  funext fun a => Fin.ext (by match a with | ⟨0, _⟩ => rfl)

/-- The head: the reference's last stage is the specification's head over layer 2's output. -/
theorem ref_head (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S512x128, .f32⟩ : BufTy).Contents (Elt Ideal)) (x8 : (⟨S512, .f32⟩ : BufTy).Contents (Elt Ideal)) (x9 : (⟨S512, .f32⟩ : BufTy).Contents (Elt Ideal)) (x10 : (⟨S512x128, .f32⟩ : BufTy).Contents (Elt Ideal)) (x12 : (⟨S512, .f32⟩ : BufTy).Contents (Elt Ideal)) (x13 : (⟨S512, .f32⟩ : BufTy).Contents (Elt Ideal)) (x14 : (⟨S256x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal)) :
    val_main_v153 (F := Ideal) x0 x1 x2 x3 x4 x5 x6 x8 x9 x10 x12 x13 x14 x15 x16 x17
      = Cert.Gcn.headR (val_main_v89 (F := Ideal) x0 x1 x2 x3 x4 x5) x6 x8 x9 x10 x12 x13 x14 x15 x16 x17 := by
  funext i
  obtain ⟨r, c, rfl⟩ : ∃ (r : Fin 100000) (c : Fin 1), i = ix2 r c := ⟨i 0, i 1, eq_ix2 i⟩
  obtain rfl : c = 0 := Fin.eq_zero c
  rw [val_main_v153_apply, val_main_v152_apply, val_main_v151_apply, val_main_v150_apply, bidx_fc2]
  have hs : ∀ k : Fin 64, val_main_v149 (F := Ideal) x0 x1 x2 x3 x4 x5 x6 x8 x9 x10 x12 x13 x14 x15 (lidx_main_v150 (ix2 r (0 : Fin 1)) k)
        * x16 (ridx_main_v150 (ix2 r (0 : Fin 1)) k)
      = Cert.Gcn.hidOf (Cert.Gcn.gateRefAt (val_main_v89 (F := Ideal) x0 x1 x2 x3 x4 x5) x6 x8 x9 r)
          (Cert.Gcn.gateRefAt (val_main_v89 (F := Ideal) x0 x1 x2 x3 x4 x5) x10 x12 x13 r) x14 (fun j => x15 (ix1 j)) k
        * x16 (ix2 k (0 : Fin 1)) := fun k => by
    rw [lidx_fc2, ridx_fc2, hid_at x0 x1 x2 x3 x4 x5 x6 x8 x9 x10 x12 x13 x14 x15 r k
      (Cert.Gcn.gateRefAt (val_main_v89 (F := Ideal) x0 x1 x2 x3 x4 x5) x6 x8 x9 r)
      (Cert.Gcn.gateRefAt (val_main_v89 (F := Ideal) x0 x1 x2 x3 x4 x5) x10 x12 x13 r)
      (gateF_at x0 x1 x2 x3 x4 x5 x6 x8 x9 r) (gateB_at x0 x1 x2 x3 x4 x5 x10 x12 x13 r)]
  rw [Finset.sum_congr rfl fun k _ => hs k]
  generalize val_main_v89 (F := Ideal) x0 x1 x2 x3 x4 x5 = h
  rfl

end Cert.Gcn.RefSide

end
-- ==== Proof.lean ====
/-
  A two-layer graph convolution followed by one step of a two-direction LSTM and a two-layer perceptron, computed by
  five kernels in blocks of 1000 nodes with the sparse aggregation left to host operations, against the same network
  written with whole-array operations: on the extended reals the two programs compute one function of their arguments.

  Both aggregate with the same gather / scale / scatter-add over the same edge lists, so the neighbour sums are one
  function of the edge list and of the dense product they aggregate. A dense product computed block of rows by block of
  rows is the whole product, row by row. The kernel adds a layer's bias as a reshaped row and the reference as a
  broadcast vector: the same entry at every column. In the head the kernel adds each direction's two bias vectors first
  and the reference adds them to the product one after the other, which agree because addition of extended reals is
  associative; the kernel's logistic function and the reference's `1 / (1 + e^{-x})` are one function there. No step
  needs the inputs to be finite. The kernel's idealization rewrote nothing, so `preserves` is trivial; the three frames
  are the generated ones.
-/
import proofs.«169956_j53901839565300_1_alg».proof.Defs
import proofs.«169956_j53901839565300_1_alg».proof.Proof.Gen.Kernel
import proofs.«169956_j53901839565300_1_alg».proof.Proof.Gen.Kernel.Skeleton
import proofs.«169956_j53901839565300_1_alg».proof.Proof.Gen.Kernel.Launch
import proofs.«169956_j53901839565300_1_alg».proof.Proof.Gen.Kernel.Points
import proofs.«169956_j53901839565300_1_alg».proof.Proof.Gen.Kernel.Frame
import proofs.«169956_j53901839565300_1_alg».proof.Proof.Gen.KernelIdeal
import proofs.«169956_j53901839565300_1_alg».proof.Proof.Gen.KernelIdeal.Skeleton
import proofs.«169956_j53901839565300_1_alg».proof.Proof.Gen.KernelIdeal.Launch
import proofs.«169956_j53901839565300_1_alg».proof.Proof.Gen.KernelIdeal.Points
import proofs.«169956_j53901839565300_1_alg».proof.Proof.Gen.KernelIdeal.Frame
import proofs.«169956_j53901839565300_1_alg».proof.Proof.Gen.ReferenceIdeal
import proofs.«169956_j53901839565300_1_alg».proof.Proof.Gen.Pre_finite_inputs
import proofs.«169956_j53901839565300_1_alg».proof.Proof.Gen.ReferenceIdeal.Run
import proofs.«169956_j53901839565300_1_alg».proof.Proof.Gen.ReferenceIdeal.Read
import proofs.«169956_j53901839565300_1_alg».proof.Proof.KernelRun
import proofs.«169956_j53901839565300_1_alg».proof.Proof.Chain
import proofs.«169956_j53901839565300_1_alg».proof.Proof.RefLayers
import proofs.«169956_j53901839565300_1_alg».proof.Proof.RefHead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the head of the second layer's output, as one function of the arguments. -/
theorem algebraic : Cert.algebraic_KernelIdeal_ReferenceIdeal := by
  intro m ρ m' ρ' _ hagree
  refine ⟨fun c => Cert.Gcn.headR (Cert.Gcn.KernelSide.hidden2 m c) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    (θ_run Cert.KernelIdeal.defs _ _).mono
      (fun r h c => ⟨(h c).1.trans (Cert.Gcn.KernelSide.result_val m ρ c), (h c).2⟩)
      (Cert.Gcn.KernelSide.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, -, a8, a9, a10, -, a12, a13, a14, a15, a16, a17⟩ := hagree c
  rw [Cert.ReferenceIdeal.Read.val_main_v153_eq, Cert.Gcn.RefSide.ref_head, Cert.Gcn.RefSide.ref_relu2,
    Cert.Gcn.RefSide.v85_eq, Cert.Gcn.RefSide.ref_lin2, Cert.Gcn.RefSide.ref_relu1, Cert.Gcn.RefSide.v42_eq,
    Cert.Gcn.RefSide.ref_lin1, a0, a1, a2, a3, a4, a5, a6, a8, a9, a10, a12, a13, a14, a15, a16, a17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
